-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_sqrt_d" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S512x512 : Shape := ⟨2, ![512, 512]⟩
abbrev S512 : Shape := ⟨1, ![512]⟩
abbrev S262144x512 : Shape := ⟨2, ![262144, 512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S262144x512 : S_.BroadcastsInDim S262144x512 (![] : Fin 0 → Fin S262144x512.rank)
  reducesTo_S262144x512_S_d0_1 : S262144x512.ReducesTo [0, 1] S_

variable [Facts]

def fn_part1 {F : FTy → Type} [FloatOps F] (main_arg4 : FVec F S512 .f32) (main_arg5 : FVec F S262144x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S262144x512 .f32 := Host.absf main_arg5
  let main_cst_8 : FVec F S_ .f32 := constant S_ .f32 0x7F800000#32
  let main_v25 : FVec F S262144x512 .f32 := broadcastInDim S262144x512 ![] bcast_S_S262144x512 main_cst_8
  let main_v26 : IVec S262144x512 1 := cmpf .olt main_v24 main_v25
  let main_c_9 : IVec S_ 1 := constantI S_ 1 1#1
  let main_v27 : IVec S_ 1 := (fun x v => Host.reduce IntOp.andi x v reducesTo_S262144x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S32x512x512 .f32) (main_arg1 : FVec F S512x512 .f32) (main_arg2 : FVec F S512 .f32) (main_arg3 : FVec F S512x512 .f32) (main_arg4 : FVec F S512 .f32) (main_arg5 : FVec F S262144x512 .f32) (main_arg6 : FVec F S512 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S32x512x512 : Shape := ⟨3, ![32, 512, 512]⟩
abbrev S512x512 : Shape := ⟨2, ![512, 512]⟩
abbrev S512 : Shape := ⟨1, ![512]⟩
abbrev S262144x512 : Shape := ⟨2, ![262144, 512]⟩
abbrev S1x512x512 : Shape := ⟨3, ![1, 512, 512]⟩
abbrev S1x512 : Shape := ⟨2, ![1, 512]⟩
abbrev S512x1 : Shape := ⟨2, ![512, 1]⟩
abbrev S32x262144 : Shape := ⟨2, ![32, 262144]⟩
abbrev S32x512 : Shape := ⟨2, ![32, 512]⟩
abbrev S32x4096 : Shape := ⟨2, ![32, 4096]⟩
abbrev S4096x512 : Shape := ⟨2, ![4096, 512]⟩

abbrev nBuf : Space → Nat
  | .hbm => 11
  | .vmem => 17
  | .smem => 0
  | _ => 0

abbrev bufTy : (tb : Table) → Fin (tcTables nBuf tb) → BufTy
  | .hbm, ⟨0, _⟩ => ⟨S32x512x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S262144x512, .f32⟩
  | .hbm, ⟨6, _⟩ => ⟨S512, .f32⟩
  | .hbm, ⟨7, _⟩ => ⟨S32x512x512, .f32⟩
  | .hbm, ⟨8, _⟩ => ⟨S32x512x512, .f32⟩
  | .hbm, ⟨9, _⟩ => ⟨S32x262144, .f32⟩
  | .hbm, ⟨10, _⟩ => ⟨S32x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S32x4096, .f32⟩
  | .local _ .vmem, ⟨11, _⟩ => ⟨S32x4096, .f32⟩
  | .local _ .vmem, ⟨12, _⟩ => ⟨S4096x512, .f32⟩
  | .local _ .vmem, ⟨13, _⟩ => ⟨S4096x512, .f32⟩
  | .local _ .vmem, ⟨14, _⟩ => ⟨S512, .f32⟩
  | .local _ .vmem, ⟨15, _⟩ => ⟨S32x512, .f32⟩
  | .local _ .vmem, ⟨16, _⟩ => ⟨S32x512, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v14 : BitVec 1 := Scalar.cmpi .eq arg0 c63_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  shapeCasts_S512x512_S1x512x512 : S512x512.ShapeCasts S1x512x512
  shapeCasts_S32x512x512_S32x262144 : S32x512x512.ShapeCasts S32x262144
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S4096x512_S4096x512_0_0 : ∀ a, (![0, 0] : Fin 2 → Nat) a + S4096x512.size a ≤ S4096x512.size a
  h_S4096x512 : 0 < S4096x512.numel
  broadcasts_S1x512_S32x512 : S1x512.Broadcasts S32x512
  dot_S512x512_S512x512_S512x512_1_0_0_1_n_n_wf : DotDims.WF S512x512 S512x512 S512x512 [1] [0] [0] [1] [] []
  dot_S512x512_S512x512_S512x512_1_1_0_0_n_n_wf : DotDims.WF S512x512 S512x512 S512x512 [1] [1] [0] [0] [] []
  dot_S32x4096_S4096x512_S32x512_1_0_0_1_n_n_wf : DotDims.WF S32x4096 S4096x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S32x512x512.size a
  hwx0_5 : ∀ i : grid0.Coords, EltTy.bits .f32 = 32 ∨ (Rect.block (s := S32x512x512) S1x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S32x512x512.size a
  hwx0_6 : ∀ i : grid0.Coords, EltTy.bits .f32 = 32 ∨ (Rect.block (s := S32x512x512) S1x512x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x4096.size a ≤ S32x262144.size a
  hwx1_0 : ∀ i : grid1.Coords, EltTy.bits .f32 = 32 ∨ (Rect.block (s := S32x262144) S32x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S262144x512.size a
  hwx1_1 : ∀ i : grid1.Coords, EltTy.bits .f32 = 32 ∨ (Rect.block (s := S262144x512) S4096x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x512.size a ≤ S32x512.size a
  hwx1_3 : ∀ i : grid1.Coords, EltTy.bits .f32 = 32 ∨ (Rect.block (s := S32x512) S32x512.size (cc1_transform_3 i) (hinb1_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S32x4096_S4096x512_S32x512_1_0_0_1_n_n : DotDims S32x4096 S4096x512 S32x512 where
  lhsContracting := [1]
  rhsContracting := [0]
  lhsNonContracting := [0]
  rhsNonContracting := [1]
  lhsBatch := []
  rhsBatch := []
  wf := dot_S32x4096_S4096x512_S32x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S32x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S32x512.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S32x512x512 : Shape := ⟨3, ![32, 512, 512]⟩
abbrev S512x512 : Shape := ⟨2, ![512, 512]⟩
abbrev S512 : Shape := ⟨1, ![512]⟩
abbrev S262144x512 : Shape := ⟨2, ![262144, 512]⟩
abbrev S1x1x512 : Shape := ⟨3, ![1, 1, 512]⟩
abbrev S_ : Shape := ⟨0, ![]⟩
abbrev S32x512 : Shape := ⟨2, ![32, 512]⟩
abbrev S32x512x1 : Shape := ⟨3, ![32, 512, 1]⟩
abbrev S32x262144 : Shape := ⟨2, ![32, 262144]⟩
abbrev S1x512 : Shape := ⟨2, ![1, 512]⟩

abbrev nBuf : Space → Nat
  | .hbm => 47
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S262144x512, .f32⟩
  | .hbm, ⟨6, _⟩ => ⟨S512, .f32⟩
  | .hbm, ⟨7, _⟩ => ⟨S32x512x512, .f32⟩
  | .hbm, ⟨8, _⟩ => ⟨S1x1x512, .f32⟩
  | .hbm, ⟨9, _⟩ => ⟨S32x512x512, .f32⟩
  | .hbm, ⟨10, _⟩ => ⟨S32x512x512, .f32⟩
  | .hbm, ⟨11, _⟩ => ⟨S32x512x512, .f32⟩
  | .hbm, ⟨12, _⟩ => ⟨S1x1x512, .f32⟩
  | .hbm, ⟨13, _⟩ => ⟨S32x512x512, .f32⟩
  | .hbm, ⟨14, _⟩ => ⟨S32x512x512, .f32⟩
  | .hbm, ⟨15, _⟩ => ⟨S32x512x512, .f32⟩
  | .hbm, ⟨16, _⟩ => ⟨S_, .f32⟩
  | .hbm, ⟨17, _⟩ => ⟨S32x512x512, .f32⟩
  | .hbm, ⟨18, _⟩ => ⟨S32x512x512, .f32⟩
  | .hbm, ⟨19, _⟩ => ⟨S32x512x512, .f32⟩
  | .hbm, ⟨20, _⟩ => ⟨S32x512x512, .f32⟩
  | .hbm, ⟨21, _⟩ => ⟨S_, .f32⟩
  | .hbm, ⟨22, _⟩ => ⟨S32x512x512, .f32⟩
  | .hbm, ⟨23, _⟩ => ⟨S32x512x512, .f32⟩
  | .hbm, ⟨24, _⟩ => ⟨S_, .f32⟩
  | .hbm, ⟨25, _⟩ => ⟨S32x512x512, .f32⟩
  | .hbm, ⟨26, _⟩ => ⟨S32x512x512, .f32⟩
  | .hbm, ⟨27, _⟩ => ⟨S_, .f32⟩
  | .hbm, ⟨28, _⟩ => ⟨S32x512, .f32⟩
  | .hbm, ⟨29, _⟩ => ⟨S_, .f32⟩
  | .hbm, ⟨30, _⟩ => ⟨S32x512, .f32⟩
  | .hbm, ⟨31, _⟩ => ⟨S32x512, .f32⟩
  | .hbm, ⟨32, _⟩ => ⟨S32x512x1, .f32⟩
  | .hbm, ⟨33, _⟩ => ⟨S32x512x512, .f32⟩
  | .hbm, ⟨34, _⟩ => ⟨S32x512x512, .f32⟩
  | .hbm, ⟨35, _⟩ => ⟨S32x512x512, .f32⟩
  | .hbm, ⟨36, _⟩ => ⟨S_, .f32⟩
  | .hbm, ⟨37, _⟩ => ⟨S32x512, .f32⟩
  | .hbm, ⟨38, _⟩ => ⟨S32x512x1, .f32⟩
  | .hbm, ⟨39, _⟩ => ⟨S32x512x512, .f32⟩
  | .hbm, ⟨40, _⟩ => ⟨S32x512x512, .f32⟩
  | .hbm, ⟨41, _⟩ => ⟨S32x512x512, .f32⟩
  | .hbm, ⟨42, _⟩ => ⟨S32x262144, .f32⟩
  | .hbm, ⟨43, _⟩ => ⟨S32x512, .f32⟩
  | .hbm, ⟨44, _⟩ => ⟨S1x512, .f32⟩
  | .hbm, ⟨45, _⟩ => ⟨S32x512, .f32⟩
  | .hbm, ⟨46, _⟩ => ⟨S32x512, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x512x512_0_1_2 : S1x1x512.BroadcastsInDim S32x512x512 (![0, 1, 2] : Fin 3 → Fin S32x512x512.rank)
  bcast_S_S32x512x512 : S_.BroadcastsInDim S32x512x512 (![] : Fin 0 → Fin S32x512x512.rank)
  reducesTo_S32x512x512_S32x512_d2 : S32x512x512.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  shapeCasts_S32x512x512_S32x262144 : S32x512x512.ShapeCasts S32x262144
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  dot_S32x512x512_S512x512_S32x512x512_2_0_01_1_n_n_wf : DotDims.WF S32x512x512 S512x512 S32x512x512 [2] [0] [0, 1] [1] [] []
  dot_S32x512x512_S32x512x512_S32x512x512_2_2_1_1_0_0_wf : DotDims.WF S32x512x512 S32x512x512 S32x512x512 [2] [2] [1] [1] [0] [0]
  dot_S32x512x512_S32x512x512_S32x512x512_2_1_1_2_0_0_wf : DotDims.WF S32x512x512 S32x512x512 S32x512x512 [2] [1] [1] [2] [0] [0]
  dot_S32x262144_S262144x512_S32x512_1_0_0_1_n_n_wf : DotDims.WF S32x262144 S262144x512 S32x512 [1] [0] [0] [1] [] []

variable [Facts₀]

def dot_S32x512x512_S512x512_S32x512x512_2_0_01_1_n_n : DotDims S32x512x512 S512x512 S32x512x512 where
  lhsContracting := [2]
  rhsContracting := [0]
  lhsNonContracting := [0, 1]
  rhsNonContracting := [1]
  lhsBatch := []
  rhsBatch := []
  wf := dot_S32x512x512_S512x512_S32x512x512_2_0_01_1_n_n_wf
def dot_S32x512x512_S32x512x512_S32x512x512_2_2_1_1_0_0 : DotDims S32x512x512 S32x512x512 S32x512x512 where
  lhsContracting := [2]
  rhsContracting := [2]
  lhsNonContracting := [1]
  rhsNonContracting := [1]
  lhsBatch := [0]
  rhsBatch := [0]
  wf := dot_S32x512x512_S32x512x512_S32x512x512_2_2_1_1_0_0_wf
def dot_S32x512x512_S32x512x512_S32x512x512_2_1_1_2_0_0 : DotDims S32x512x512 S32x512x512 S32x512x512 where
  lhsContracting := [2]
  rhsContracting := [1]
  lhsNonContracting := [1]
  rhsNonContracting := [2]
  lhsBatch := [0]
  rhsBatch := [0]
  wf := dot_S32x512x512_S32x512x512_S32x512x512_2_1_1_2_0_0_wf
def dot_S32x262144_S262144x512_S32x512_1_0_0_1_n_n : DotDims S32x262144 S262144x512 S32x512 where
  lhsContracting := [1]
  rhsContracting := [0]
  lhsNonContracting := [0]
  rhsNonContracting := [1]
  lhsBatch := []
  rhsBatch := []
  wf := dot_S32x262144_S262144x512_S32x512_1_0_0_1_n_n_wf

class Facts : Prop extends Facts₀ where

variable [Facts]
-- ==== Proof.KAttnRegion.lean ====
/-
  Region 0 of the program: one grid point per batch element b. The body reads the batch's block of x and the two
  weight matrices and bias vectors whole, and writes two blocks: the attention weights
  softmax(sigmoid((x Wq + bq)(x Wk + bk)ᵀ · scale)) of the batch, and their product with the batch's x.
  This module states, at any entry contents `V` of the core's buffers, what each staging buffer holds after the
  body at a point — the inputs their blocks, each output the single whole-buffer store of its payload — proves the
  body's run on whole staging buffers, and packages both as the pipeline's proof data and body obligation.
-/
import proofs.«132310_j68118181314609_1_alg».proof.Proof.Gen.Kernel.Launch
import proofs.«132310_j68118181314609_1_alg».proof.Proof.Gen.Kernel.Skeleton
import proofs.«132310_j68118181314609_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not (an unfetched window's block index has not moved since the point that fetched it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not (an unfetched window's block index has not moved since the point that fetched it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not (an unfetched window's block index has not moved since the point that fetched it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not (an unfetched window's block index has not moved since the point that fetched it). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there
    or not (an unfetched window's block index has not moved since the point that fetched it). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes a staging buffer whole -/

abbrev rX : Rect S1x512x512 := Rect.unit (s := S1x512x512) ![0, 0, 0] S1x512x512.size inb_S1x512x512_S1x512x512_0_0_0
abbrev rW : Rect S512x512 := Rect.unit (s := S512x512) ![0, 0] S512x512.size inb_S512x512_S512x512_0_0
abbrev rB : Rect S512 := Rect.unit (s := S512) ![0] S512.size inb_S512_S512_0

/-! ## What the body leaves in the two output buffers -/

/-- The attention-weights buffer after the body: one whole-buffer store of the softmax payload of the five inputs. -/
def attnOut (x0 : Vec F S1x512x512 .f32) (x1 : Vec F S512x512 .f32) (x2 : Vec F S512 .f32) (x3 : Vec F S512x512 .f32) (x4 : Vec F S512 .f32) : Vec F S1x512x512 .f32 :=
  View.canon [⟨rX, k0_pay4 (View.ld x0 rX) (View.ld x1 rW) (View.ld x3 rW) (View.ld x2 rB) (View.ld x4 rB)⟩]

/-- The weighted-values buffer after the body: one whole-buffer store of (attention weights) · x. -/
def avOut (x0 : Vec F S1x512x512 .f32) (x1 : Vec F S512x512 .f32) (x2 : Vec F S512 .f32) (x3 : Vec F S512x512 .f32) (x4 : Vec F S512 .f32) : Vec F S1x512x512 .f32 :=
  View.canon [⟨rX, k0_pay1 (k0_pay2 (View.ld x0 rX)) (k0_pay5 (View.ld x0 rX) (View.ld x1 rW) (View.ld x3 rW) (View.ld x2 rB) (View.ld x4 rB)) (constant S512x512 .f32 0x00000000#32)⟩]

/-- A single whole-buffer store covers the buffer. -/
theorem coverX (p0 : Vec F S1x512x512 .f32) (y : S1x512x512.Idx) :
    ∃ pc ∈ ([⟨rX, p0⟩] : List (View.Piece (Elt F) S1x512x512 .f32)), y ∈ pc.1.set :=
  View.cover_of_tiled [⟨rX, p0⟩] S1x512x512.size (by rfl) y

/-! ## The body's run -/

set_option maxHeartbeats 4000000 in
/-- On whole staging buffers — the five inputs at their contents, the two outputs at anything — the body runs to
    its end, the inputs as they were and each output at its store. -/
theorem sound_attn (c : Dev nD) (E : Set ℕ) (i : grid0.Coords)
    (arg1 : Memref sig .tc .vmem S1x512x512 .f32) (harg1 : arg1.IsWhole) (arg2 : Memref sig .tc .vmem S512x512 .f32) (harg2 : arg2.IsWhole)
    (arg3 : Memref sig .tc .vmem S512 .f32) (harg3 : arg3.IsWhole) (arg4 : Memref sig .tc .vmem S512x512 .f32) (harg4 : arg4.IsWhole)
    (arg5 : Memref sig .tc .vmem S512 .f32) (harg5 : arg5.IsWhole) (arg6 : Memref sig .tc .vmem S1x512x512 .f32) (harg6 : arg6.IsWhole)
    (arg7 : Memref sig .tc .vmem S1x512x512 .f32) (harg7 : arg7.IsWhole)
    (x0 : Vec F S1x512x512 .f32) (x1 : Vec F S512x512 .f32) (x2 : Vec F S512 .f32) (x3 : Vec F S512x512 .f32) (x4 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (attnOut x0 x1 x2 x3 x4) ∗ owns (c : Thread nD τ) arg7 fullShare (avOut x0 x1 x2 x3 x4)) -∗ K ⟨⟩))
      ⊢ wp frame (wpE (defs₀ (F := F)) Variants.none c none) E (cc0__attn_kernel i arg1 harg1 arg2 harg2 arg3 harg3 arg4 harg4 arg5 harg5 arg6 harg6 arg7 harg7) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverX _)
  iexists _; isplitr
  swap; · iexact H6
  ipureintro
  exact View.read_writes_eq_canon _ _ _ (coverX _)

/-! ## The pipeline's proof data -/

/-- The proof data of region 0 on core `c`: the arrays as the region finds them; after the body at point `t` each
    input's buffer at its block and each output's at its store over the input blocks; the invariant holds only what
    the body never touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => attnOut (iblk0 V c 0 t) (iblk0 V c 1 t) (iblk0 V c 2 t) (iblk0 V c 3 t) (iblk0 V c 4 t)
    | ⟨6, _⟩ => avOut (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = attnOut (iblk0 V c 0 t) (iblk0 V c 1 t) (iblk0 V c 2 t) (iblk0 V c 3 t) (iblk0 V c 4 t) := by dsimp only [dat0]
theorem after0_6 (c : Dev nD) (t : Fin cfg0.N) : (dat0 V c).after 6 t = avOut (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d

/-! ## The body obligation, at a generic point -/

/-- What the body is called with at point `t`: the invariant, the core's dues, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_attn c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Attn

end
-- ==== Proof.KMlpRuns.lean ====
/- The second pallas_call (the MLP layer: a 32 x 262144 by 262144 x 512 product accumulated over 64 grid points of
   4096 contracted columns each, a bias row added at the end): what its three control cases share. The body
   resets its 32 x 512 accumulator under a condition on the grid coordinate (true exactly at point 0), always adds
   the point's partial product into it, and under a second condition (true exactly at point 63) adds the bias and
   stores the result into the output block. Here: the two conditions as propositions and in closed form over the
   64 points, and where the output window is idle and where it is written back. -/
import proofs.«132310_j68118181314609_1_alg».proof.Proof.Gen.Kernel.Launch
import proofs.«132310_j68118181314609_1_alg».proof.Proof.Gen.Kernel.Skeleton
import proofs.«132310_j68118181314609_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition under which the body zeroes its accumulator: the grid coordinate compared with 0, as the body's
    integer chain computes it. -/
abbrev condFirst (i : grid1.Coords) : Prop :=
  (Scalar.cmpi .ne (Scalar.extui (Scalar.cmpi .eq (BitVec.ofNat 32 (i 0).val) 0#32)) 0#32) = 1#1
/-- It holds at point 0 and nowhere else. -/
theorem hcondFirst : ∀ t : Fin cfg1.N, condFirst (grid1.coords t) ↔ t.val = 0 :=
  (by decide +kernel : ∀ t : Fin grid1.N, condFirst (grid1.coords t) ↔ t.val = 0)

/-- The condition under which the body adds the bias and stores the output block: the grid coordinate compared
    with 63. -/
abbrev condLast (i : grid1.Coords) : Prop := k1_cond2 i = 1#1
/-- It holds at point 63 and nowhere else. -/
theorem hcondLast : ∀ t : Fin cfg1.N, condLast (grid1.coords t) ↔ t.val = 63 :=
  (by decide +kernel : ∀ t : Fin grid1.N, condLast (grid1.coords t) ↔ t.val = 63)

/-- The three input windows are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Off the last point the output window is idle (the body stores nothing into it), -/
theorem idleAt_3 : ∀ t : Fin cfg1.N, ¬condLast (grid1.coords t) → cfg1.idle 3 (grid1.coords t) = true := by decide +kernel
/-- and its block is not written back there; -/
theorem noFlush_3 : ∀ t : Fin cfg1.N, ¬condLast (grid1.coords t) → (cfg1.win 3).flush t = false := by decide +kernel
/-- at the last point it is live. -/
theorem liveAt_3 : ∀ t : Fin cfg1.N, condLast (grid1.coords t) → cfg1.idle 3 (grid1.coords t) = false := by decide +kernel

/-- The offsets of a whole-buffer access are zero, however spelt. -/
theorem zero2 : (![0, 0] : Fin 2 → Nat) = fun _ => 0 := funext fun a => by fin_cases a <;> rfl
theorem zero1 : (![0] : Fin 1 → Nat) = fun _ => 0 := funext fun a => by fin_cases a <;> rfl

end Cert.Kernel.Mlp

end
-- ==== Proof.KMlpRunA.lean ====
/- The MLP body at the first point (the reset condition holds, the output condition does not): it stores zeros
   into the accumulator, then reads the point's two blocks and the accumulator — which now reads the zeros — and
   stores zeros + product back. The accumulator's contents on entry are never used. -/
import proofs.«132310_j68118181314609_1_alg».proof.Proof.KMlpRuns

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole buffers — the three inputs at `x0`, `x1`, `x2`, the output's buffer at `xi3`, the accumulator at
    anything — the body at a point where only the reset condition holds leaves everything but the accumulator as it
    was and the accumulator at `k1_pay2 x0 x1 k1_pay1` (zeros plus the product of the two blocks). -/
theorem runA (c : Dev nD) (i : grid1.Coords)
    (arg1 : Memref sig .tc .vmem S32x4096 .f32) (harg1 : arg1.IsWhole)
    (arg2 : Memref sig .tc .vmem S4096x512 .f32) (harg2 : arg2.IsWhole)
    (arg3 : Memref sig .tc .vmem S512 .f32) (harg3 : arg3.IsWhole)
    (arg4 : Memref sig .tc .vmem S32x512 .f32) (harg4 : arg4.IsWhole)
    (arg5 : Memref sig .tc .vmem S32x512 .f32) (harg5 : arg5.IsWhole)
    (hc0 : condFirst i) (hc1 : ¬condLast i)
    (x0 : Vec F S32x4096 .f32) (x1 : Vec F S4096x512 .f32) (x2 : Vec F S512 .f32)
    (xi3 : Vec F S32x512 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xi3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare xi3
            ∗ owns (c : Thread nD τ) arg5 fullShare (k1_pay2 x0 x1 (k1_pay1 (F := F)))) -∗ K ⟨⟩))
      ⊢ wp frame (wpE (defs₀ (F := F)) Variants.none c none) E
          (cc1__mlp_kernel i arg1 harg1 arg2 harg2 arg3 harg3 arg4 harg4 arg5 harg5) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.read_writes_eq_canon _ _ _ (fun y => ⟨_, List.mem_cons.mpr (Or.inl rfl), View.mem_set_unit_zero (S := S32x512) zero2 inb_S32x512_S32x512_0_0 y⟩),
    View.canon_cons_unit_zero zero2]
  simp only [View.readAt_eq_ld, View.ld_unit_zero (S := S32x4096) zero2, View.ld_unit_zero (S := S4096x512) zero2,
    View.ld_unit_zero (S := S32x512) zero2, View.ld_unit_zero (S := S512) zero1, View.readCov_unit_zero (S := S32x512) _ zero2]

end Cert.Kernel.Mlp

end
-- ==== Proof.KMlpRunB.lean ====
/- The MLP body at a middle point (neither condition holds): it reads the point's 32 x 4096 block of the left
   operand, its 4096 x 512 block of the right operand and the accumulator, and stores accumulator + product back.
   Every access is of a whole buffer, so the one store's payload IS what the accumulator then reads. -/
import proofs.«132310_j68118181314609_1_alg».proof.Proof.KMlpRuns

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole buffers — the three inputs at `x0`, `x1`, `x2`, the output's buffer at `xi3`, the accumulator at
    `xs` — the body at a point where neither condition holds leaves everything but the accumulator as it was and
    the accumulator at `k1_pay2 x0 x1 xs` (the accumulator plus the product of the two blocks). -/
theorem runB (c : Dev nD) (i : grid1.Coords)
    (arg1 : Memref sig .tc .vmem S32x4096 .f32) (harg1 : arg1.IsWhole)
    (arg2 : Memref sig .tc .vmem S4096x512 .f32) (harg2 : arg2.IsWhole)
    (arg3 : Memref sig .tc .vmem S512 .f32) (harg3 : arg3.IsWhole)
    (arg4 : Memref sig .tc .vmem S32x512 .f32) (harg4 : arg4.IsWhole)
    (arg5 : Memref sig .tc .vmem S32x512 .f32) (harg5 : arg5.IsWhole)
    (hc0 : ¬condFirst i) (hc1 : ¬condLast i)
    (x0 : Vec F S32x4096 .f32) (x1 : Vec F S4096x512 .f32) (x2 : Vec F S512 .f32)
    (xi3 : Vec F S32x512 .f32) (xs : Vec F S32x512 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xi3
        ∗ owns (c : Thread nD τ) arg5 fullShare xs
        ∗ (iprop(owns (c : Thread nD τ) arg1 fullShare x0 ∗ owns (c : Thread nD τ) arg2 fullShare x1
            ∗ owns (c : Thread nD τ) arg3 fullShare x2 ∗ owns (c : Thread nD τ) arg4 fullShare xi3
            ∗ owns (c : Thread nD τ) arg5 fullShare (k1_pay2 x0 x1 xs)) -∗ K ⟨⟩))
      ⊢ wp frame (wpE (defs₀ (F := F)) Variants.none c none) E
          (cc1__mlp_kernel i arg1 harg1 arg2 harg2 arg3 harg3 arg4 harg4 arg5 harg5) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.read_writes_eq_canon _ _ _ (fun y => ⟨_, List.mem_cons.mpr (Or.inl rfl), View.mem_set_unit_zero (S := S32x512) zero2 inb_S32x512_S32x512_0_0 y⟩),
    View.canon_cons_unit_zero zero2]
  simp only [View.readAt_eq_ld, View.ld_unit_zero (S := S32x4096) zero2, View.ld_unit_zero (S := S4096x512) zero2,
    View.ld_unit_zero (S := S32x512) zero2, View.ld_unit_zero (S := S512) zero1, View.readCov_unit_zero (S := S32x512) _ zero2]

end Cert.Kernel.Mlp

end
-- ==== Proof.KMlpRunC.lean ====
/- The MLP body at the last point (the output condition holds, the reset condition does not): it adds the
   point's partial product into the accumulator as at a middle point, then reads the accumulator back and the
   bias row, and stores accumulator + bias (the row repeated down the 32 rows) into the output's buffer, whose
   contents on entry are never used. -/
import proofs.«132310_j68118181314609_1_alg».proof.Proof.KMlpRuns

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole buffers — the three inputs at `x0`, `x1`, `x2`, the output's buffer at anything, the accumulator
    at `xs` — the body at a point where only the output condition holds leaves the inputs as they were, the
    accumulator at `k1_pay2 x0 x1 xs` and the output's buffer at `k1_pay3` of that and the bias `x2`. -/
theorem runC (c : Dev nD) (i : grid1.Coords)
    (arg1 : Memref sig .tc .vmem S32x4096 .f32) (harg1 : arg1.IsWhole)
    (arg2 : Memref sig .tc .vmem S4096x512 .f32) (harg2 : arg2.IsWhole)
    (arg3 : Memref sig .tc .vmem S512 .f32) (harg3 : arg3.IsWhole)
    (arg4 : Memref sig .tc .vmem S32x512 .f32) (harg4 : arg4.IsWhole)
    (arg5 : Memref sig .tc .vmem S32x512 .f32) (harg5 : arg5.IsWhole)
    (hc0 : ¬condFirst i) (hc1 : condLast i)
    (x0 : Vec F S32x4096 .f32) (x1 : Vec F S4096x512 .f32) (x2 : Vec F S512 .f32)
    (xs : Vec F S32x512 .f32) (E : Set ℕ) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ owns (c : Thread nD τ) arg5 fullShare xs
        ∗ (iprop(owns (c : Thread nD τ) arg1 fullShare x0 ∗ owns (c : Thread nD τ) arg2 fullShare x1
            ∗ owns (c : Thread nD τ) arg3 fullShare x2
            ∗ owns (c : Thread nD τ) arg4 fullShare (k1_pay3 (k1_pay2 x0 x1 xs) x2)
            ∗ owns (c : Thread nD τ) arg5 fullShare (k1_pay2 x0 x1 xs)) -∗ K ⟨⟩))
      ⊢ wp frame (wpE (defs₀ (F := F)) Variants.none c none) E
          (cc1__mlp_kernel i arg1 harg1 arg2 harg2 arg3 harg3 arg4 harg4 arg5 harg5) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (fun y => ⟨_, List.mem_cons.mpr (Or.inl rfl), View.mem_set_unit_zero (S := S32x512) zero2 inb_S32x512_S32x512_0_0 y⟩),
      View.canon_cons_unit_zero zero2]
    simp only [View.readAt_eq_ld, View.ld_unit_zero (S := S32x4096) zero2, View.ld_unit_zero (S := S4096x512) zero2,
      View.ld_unit_zero (S := S32x512) zero2, View.ld_unit_zero (S := S512) zero1, View.readCov_unit_zero (S := S32x512) _ zero2]
  iexists _; isplitr
  swap; · iexact HS
  ipureintro
  sl_unfold_run_names
  rw [View.read_writes_eq_canon _ _ _ (fun y => ⟨_, List.mem_cons.mpr (Or.inl rfl), View.mem_set_unit_zero (S := S32x512) zero2 inb_S32x512_S32x512_0_0 y⟩),
    View.canon_cons_unit_zero zero2]
  simp only [View.readAt_eq_ld, View.ld_unit_zero (S := S32x4096) zero2, View.ld_unit_zero (S := S4096x512) zero2,
    View.ld_unit_zero (S := S32x512) zero2, View.ld_unit_zero (S := S512) zero1, View.readCov_unit_zero (S := S32x512) _ zero2]

end Cert.Kernel.Mlp

end
-- ==== Proof.KMlpRegion.lean ====
/- The second pallas_call (the MLP layer) as one region of the program, at a PARAMETER `V`: the contents of the
   core's buffers when the region is entered. Per grid point `t` (64 of them) the body adds the product of the
   point's 32 x 4096 block of the left operand and its 4096 x 512 block of the right operand into a 32 x 512
   accumulator that lives between points (zeroed at point 0); at point 63 it adds the bias row and stores the sum
   into the output block, which is written back there and nowhere else. So the accumulator after point `n` is
   the `n + 1`-fold iteration `accAt`, and the output block after the last point is `outAt` of it. This module
   states the proof data of the pipeline over those two, proves the body obligation from the three control cases'
   runs, and relates the invariant to what the region is entered and left with. -/
import proofs.«132310_j68118181314609_1_alg».proof.Proof.KMlpRunA
import proofs.«132310_j68118181314609_1_alg».proof.Proof.KMlpRunB
import proofs.«132310_j68118181314609_1_alg».proof.Proof.KMlpRunC

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the buffer contents when the region is entered: the parameter everything here is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place: unfetched, the block index has
    not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place: unfetched, the block index has
    not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place: unfetched, the block index has
    not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the output block, point by point -/

/-- The accumulator after the body at point `n`: zeros plus the first point's product, then each point's product
    added to what the point before left. -/
def accAt (c : Dev nD) : (n : ℕ) → n < cfg1.N → Vec F S32x512 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (accAt c n (Nat.lt_of_succ_lt hn))

theorem accAt_zero (c : Dev nD) (h : 0 < cfg1.N) :
    accAt V c 0 h = k1_pay2 (iblk1 V c 0 ⟨0, h⟩) (iblk1 V c 1 ⟨0, h⟩) (k1_pay1 (F := F)) := rfl

theorem accAt_succ (c : Dev nD) (n : ℕ) (h : n + 1 < cfg1.N) :
    accAt V c (n + 1) h = k1_pay2 (iblk1 V c 0 ⟨n + 1, h⟩) (iblk1 V c 1 ⟨n + 1, h⟩) (accAt V c n (Nat.lt_of_succ_lt h)) := rfl

/-- At the first point, in the form the body obligation meets it. -/
theorem accAt_first (c : Dev nD) (t : Fin cfg1.N) (h0 : t.val = 0) :
    accAt V c t.val t.isLt = k1_pay2 (iblk1 V c 0 t) (iblk1 V c 1 t) (k1_pay1 (F := F)) := by
  obtain ⟨n, hn⟩ := t
  cases n with
  | zero => exact rfl
  | succ n => exact absurd h0 (Nat.succ_ne_zero n)

/-- At a later point: this point's product added to what the point before left. -/
theorem accAt_later (c : Dev nD) (t : Fin cfg1.N) (h0 : t.val ≠ 0) :
    accAt V c t.val t.isLt
      = k1_pay2 (iblk1 V c 0 t) (iblk1 V c 1 t) (accAt V c (t.val - 1) (Nat.lt_of_le_of_lt (Nat.sub_le _ _) t.isLt)) := by
  obtain ⟨n, hn⟩ := t
  cases n with
  | zero => exact absurd rfl h0
  | succ n => exact rfl

/-- The output window's staging buffer after the body at point `n`: the accumulator there plus the bias row. The
    body stores it at the last point only; elsewhere the window is idle and this value is not consulted. -/
def outAt (c : Dev nD) (n : ℕ) (hn : n < cfg1.N) : Vec F S32x512 .f32 :=
  k1_pay3 (accAt V c n hn) (iblk1 V c 2 ⟨n, hn⟩)

theorem outAt_last (c : Dev nD) (h : 63 < cfg1.N) :
    outAt V c 63 h = k1_pay3 (accAt V c 63 h) (iblk1 V c 2 ⟨63, h⟩) := rfl

/-! ## The invariant -/

/-- The accumulator as a memref: a whole scoped buffer of the kernel's own, passed beside the windows. -/
abbrev scM : Memref sig .tc .vmem S32x512 .f32 := Memref.whole cc1_scratch0

/-- What the region holds that its body never touches: the first pallas_call's ten staging buffers at some contents
    each, and the generator register at some state. -/
def restInv (c : Dev nD) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f))
    ∗ ∃ r, prngReg c r)

/-- The region's entry invariant spelt out: the untouched rest, and the accumulator at some contents. -/
theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ d, owns (c : Thread nD τ) scM fullShare d)) ∗ (∃ r, prngReg c r)) := by
  unfold Pipeline.ΦA; rw [scopedRest1_eq]; simp only [scM, owns_whole]; try rfl

/-- It hands out the accumulator, -/
theorem PhiA_split (c : Dev nD) :
    (Pipeline.ΦA spec1 c : sProp 𝕄) ⊢ iprop((∃ d, owns (c : Thread nD τ) scM fullShare d) ∗ restInv c) := by
  rw [PhiA_eq]; unfold restInv
  iintro ⟨⟨G0, G1, G2, G3, G4, G5, G6, G7, G8, G9, HS⟩, Hg⟩
  isplitl [HS]; · iexact HS
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  iexact G9

/-- and takes it back at any contents. -/
theorem PhiA_join (c : Dev nD) :
    iprop((∃ d, owns (c : Thread nD τ) scM fullShare d) ∗ restInv c) ⊢ (Pipeline.ΦA spec1 c : sProp 𝕄) := by
  rw [PhiA_eq]; unfold restInv
  iintro ⟨HS, ⟨G0, G1, G2, G3, G4, G5, G6, G7, G8, G9⟩, Hg⟩
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  iexact HS

/-- The invariant before position `n`: on entry the region's own; after point `n` the accumulator at `accAt` of
    that point, beside the untouched rest. -/
def PhiS (c : Dev nD) : (n : ℕ) → n ≤ cfg1.N → sProp 𝕄
  | 0, _ => Pipeline.ΦA spec1 c
  | n + 1, hn => iprop(owns (c : Thread nD τ) scM fullShare (accAt V c n hn) ∗ restInv c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (accAt V c n hn) ∗ restInv c) := rfl

theorem PhiS_pos (c : Dev nD) (n : ℕ) (h : n ≤ cfg1.N) (hz : n ≠ 0) :
    PhiS V c n h = iprop(owns (c : Thread nD τ) scM fullShare (accAt V c (n - 1) (by omega)) ∗ restInv c) := by
  cases n with
  | zero => exact absurd rfl hz
  | succ n => rfl

/-! ## The pipeline's proof data -/

/-- The proof data of this pipeline on core `c`: the arrays as the region finds them; after the body at point `t`
    each input's buffer at its block and the output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the position decides the control case (first,
    middle, last), whose run applies; the invariant hands the body the accumulator — at anything at the first
    point, at what the point before left afterwards — and takes it back at this point's `accAt`; the output's
    buffer is handed back untouched where the window is idle and at `outAt` at the last point; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt_0 t], after1_0]
  rw [show (dat1 V c).leavesExact 1 t = owns (c : Thread nD τ) (st1_1 t) fullShare ((dat1 V c).after 1 t) from by
    unfold Dat.leavesExact; rw [liveAt_1 t], after1_1]
  rw [show (dat1 V c).leavesExact 2 t = owns (c : Thread nD τ) (st1_2 t) fullShare ((dat1 V c).after 2 t) from by
    unfold Dat.leavesExact; rw [liveAt_2 t], after1_2]
  rw [PhiS_castSucc V c t]
  by_cases h0 : t.val = 0
  · have h1 : ¬t.val = 63 := by omega
    rw [Dat.leavesExact_idle (dat1 V c) 3 t (idleAt_3 t (fun h => h1 ((hcondLast t).mp h))) (noFlush_3 t (fun h => h1 ((hcondLast t).mp h)))]
    rw [PhiS_zero V c _ _ h0, accAt_first V c t h0]
    iintro ⟨HΦ, Ho, ⟨%d0, H0⟩, ⟨%d1, H1⟩, ⟨%d2, H2⟩, ⟨%d3, H3⟩⟩
    icases (PhiA_split (F := F) c) $$ HΦ with ⟨HS, HR⟩
    iapply (runA c (grid1.coords t) _ _ _ _ _ _ _ _ _ _ ((hcondFirst t).mpr h0) (fun h => h1 ((hcondLast t).mp h))
      (iblk1 V c 0 t) (iblk1 V c 1 t) (iblk1 V c 2 t) _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR]
    · isplitl [HS]; · iexact HS
      iexact HR
    isplitl [Ho]; · iexact Ho
    isplitl [H0]; · iexact H0
    isplitl [H1]; · iexact H1
    isplitl [H2]; · iexact H2
    iexists _; iexact H3
  · by_cases h1 : t.val = 63
    · rw [show (dat1 V c).leavesExact 3 t = owns (c : Thread nD τ) (st1_3 t) fullShare ((dat1 V c).after 3 t) from by
        unfold Dat.leavesExact; rw [liveAt_3 t ((hcondLast t).mpr h1)], after1_3]
      unfold outAt
      rw [PhiS_pos V c _ _ h0, accAt_later V c t h0]
      iintro ⟨⟨HS, HR⟩, Ho, ⟨%d0, H0⟩, ⟨%d1, H1⟩, ⟨%d2, H2⟩, ⟨%d3, H3⟩⟩
      iapply (runC c (grid1.coords t) _ _ _ _ _ _ _ _ _ _ (fun h => h0 ((hcondFirst t).mp h)) ((hcondLast t).mpr h1)
        (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · rw [Dat.leavesExact_idle (dat1 V c) 3 t (idleAt_3 t (fun h => h1 ((hcondLast t).mp h))) (noFlush_3 t (fun h => h1 ((hcondLast t).mp h)))]
      rw [PhiS_pos V c _ _ h0, accAt_later V c t h0]
      iintro ⟨⟨HS, HR⟩, Ho, ⟨%d0, H0⟩, ⟨%d1, H1⟩, ⟨%d2, H2⟩, ⟨%d3, H3⟩⟩
      iapply (runB c (grid1.coords t) _ _ _ _ _ _ _ _ _ _ (fun h => h0 ((hcondFirst t).mp h)) (fun h => h1 ((hcondLast t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the entry invariant back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HS, HR⟩
  iapply (PhiA_join (F := F) c)
  isplitl [HS]
  · iexists _; iexact HS
  iexact HR

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region

end Cert.Kernel.Mlp

end
-- ==== Proof.KMainRun.lean ====
/-
  The whole program as a run: region 0 (the per-batch attention block), the host reshape of its second result
  from [32, 512, 512] to [32, 262144], region 1 (the blocked product with the last weight matrix, plus bias).
  The contents of the core's buffers are followed through the three items as a fold from the launch memory: a
  region leaves its arrays at what its write-backs folded into them and every other buffer as it found it; the host
  stretch applies its operation. Every weakly fair execution terminates with every unscoped buffer at the last
  fold; the arguments are read back through the fold to their launch contents, and the two results are the arrays
  the two regions' write-backs leave.
-/
import proofs.«132310_j68118181314609_1_alg».proof.Proof.KAttnRegion
import proofs.«132310_j68118181314609_1_alg».proof.Proof.KMlpRegion

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (Attn.dat0 (V0 m ρ) c).arrAt w cfg0.N
theorem W1_arr (c : Dev nD) (w : Fin cfg0.W) :
    W1 m ρ c (Proc.devRef .tc (Pipeline.arrRef spec0 w)) = (Attn.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Attn.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host reshape (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1. -/
def W3 (c : Dev nD) : Valuation τ sig (Elt F) :=
  Pipeline.withArrays spec1 c (W2 m ρ c) fun w => (Mlp.dat1 (V2 m ρ) c).arrAt w cfg1.N
theorem W3_arr (c : Dev nD) (w : Fin cfg1.W) :
    W3 m ρ c (Proc.devRef .tc (Pipeline.arrRef spec1 w)) = (Mlp.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Mlp.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: the reshape writes none, and a region only reads them -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((Attn.dat0 (V0 m ρ) c).arrAt_in 0 rfl _).trans (Attn.A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((Attn.dat0 (V0 m ρ) c).arrAt_in 1 rfl _).trans (Attn.A_eq0 (V0 m ρ) c 1))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := (W1_arr m ρ c 2).trans (((Attn.dat0 (V0 m ρ) c).arrAt_in 2 rfl _).trans (Attn.A_eq0 (V0 m ρ) c 2))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 3).trans (((Attn.dat0 (V0 m ρ) c).arrAt_in 3 rfl _).trans (Attn.A_eq0 (V0 m ρ) c 3))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := (W1_arr m ρ c 4).trans (((Attn.dat0 (V0 m ρ) c).arrAt_in 4 rfl _).trans (Attn.A_eq0 (V0 m ρ) c 4))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 1).trans (((Mlp.dat1 (V2 m ρ) c).arrAt_in 1 rfl _).trans (Mlp.A_eq1 (V2 m ρ) c 1))
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 2).trans (((Mlp.dat1 (V2 m ρ) c).arrAt_in 2 rfl _).trans (Mlp.A_eq1 (V2 m ρ) c 2))
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Attn.dat0 (V0 m ρ) c
  | ⟨1, _⟩ => fun c => Mlp.dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered with every unscoped buffer at the contents before it, left with them at
    the contents after it. Its arrays are split out of the unscoped buffers on entry and put back at their final
    contents on exit; the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Attn.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers on entry and put back at their final
    contents on exit; the generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Mlp.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m ρ 1 c).Φ 0 := by
      have h' := Mlp.hin1 (V2 m ρ) c; unfold Pipeline.ΦA at h'; exact h'
    iintro ⟨Hp, -, Hr⟩
    iapply h
    isplitl [Hr]; · iexact Hr
    iexact Hp
  hout c := by
    rw [Pipeline.ownSems0_none]
    have h : (pdats m ρ 1 c).Φ (Fin.last _) ⊢ (iprop(Pipeline.scopedRest spec1 c ∗ ∃ r, prngReg c r) : sProp 𝕄) := by
      have h' := Mlp.hout1 (V2 m ρ) c; unfold Pipeline.ΦA at h'; exact h'
    have g : (iprop(Pipeline.scopedRest spec1 c ∗ ∃ r, prngReg c r) : sProp 𝕄) ⊢ iprop((∃ r, prngReg c r) ∗ BI.emp ∗ Pipeline.scopedRest spec1 c) := by
      iintro ⟨Hr, Hp⟩
      isplitl [Hp]; · iexact Hp
      isplitr; · iempintro
      iexact Hr
    exact h.trans g
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state every unscoped buffer of every core holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c)⟩) (run_all m ρ)

end Cert.Kernel.Whole

end
-- ==== Proof.AttnRegion.lean ====
/-
  Region 0 of the program: one grid point per batch element b. The body reads the batch's block of x and the two
  weight matrices and bias vectors whole, and writes two blocks: the attention weights
  softmax(sigmoid((x Wq + bq)(x Wk + bk)ᵀ · scale)) of the batch, and their product with the batch's x.
  This module states, at any entry contents `V` of the core's buffers, what each staging buffer holds after the
  body at a point — the inputs their blocks, each output the single whole-buffer store of its payload — proves the
  body's run on whole staging buffers, and packages both as the pipeline's proof data and body obligation.
-/
import proofs.«132310_j68118181314609_1_alg».proof.Proof.Gen.KernelIdeal.Launch
import proofs.«132310_j68118181314609_1_alg».proof.Proof.Gen.KernelIdeal.Skeleton
import proofs.«132310_j68118181314609_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not (an unfetched window's block index has not moved since the point that fetched it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not (an unfetched window's block index has not moved since the point that fetched it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not (an unfetched window's block index has not moved since the point that fetched it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not (an unfetched window's block index has not moved since the point that fetched it). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there
    or not (an unfetched window's block index has not moved since the point that fetched it). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes a staging buffer whole -/

abbrev rX : Rect S1x512x512 := Rect.unit (s := S1x512x512) ![0, 0, 0] S1x512x512.size inb_S1x512x512_S1x512x512_0_0_0
abbrev rW : Rect S512x512 := Rect.unit (s := S512x512) ![0, 0] S512x512.size inb_S512x512_S512x512_0_0
abbrev rB : Rect S512 := Rect.unit (s := S512) ![0] S512.size inb_S512_S512_0

/-! ## What the body leaves in the two output buffers -/

/-- The attention-weights buffer after the body: one whole-buffer store of the softmax payload of the five inputs. -/
def attnOut (x0 : Vec F S1x512x512 .f32) (x1 : Vec F S512x512 .f32) (x2 : Vec F S512 .f32) (x3 : Vec F S512x512 .f32) (x4 : Vec F S512 .f32) : Vec F S1x512x512 .f32 :=
  View.canon [⟨rX, k0_pay4 (View.ld x0 rX) (View.ld x1 rW) (View.ld x3 rW) (View.ld x2 rB) (View.ld x4 rB)⟩]

/-- The weighted-values buffer after the body: one whole-buffer store of (attention weights) · x. -/
def avOut (x0 : Vec F S1x512x512 .f32) (x1 : Vec F S512x512 .f32) (x2 : Vec F S512 .f32) (x3 : Vec F S512x512 .f32) (x4 : Vec F S512 .f32) : Vec F S1x512x512 .f32 :=
  View.canon [⟨rX, k0_pay1 (k0_pay2 (View.ld x0 rX)) (k0_pay5 (View.ld x0 rX) (View.ld x1 rW) (View.ld x3 rW) (View.ld x2 rB) (View.ld x4 rB)) (constant S512x512 .f32 0x00000000#32)⟩]

/-- A single whole-buffer store covers the buffer. -/
theorem coverX (p0 : Vec F S1x512x512 .f32) (y : S1x512x512.Idx) :
    ∃ pc ∈ ([⟨rX, p0⟩] : List (View.Piece (Elt F) S1x512x512 .f32)), y ∈ pc.1.set :=
  View.cover_of_tiled [⟨rX, p0⟩] S1x512x512.size (by rfl) y

/-! ## The body's run -/

set_option maxHeartbeats 4000000 in
/-- On whole staging buffers — the five inputs at their contents, the two outputs at anything — the body runs to
    its end, the inputs as they were and each output at its store. -/
theorem sound_attn (c : Dev nD) (E : Set ℕ) (i : grid0.Coords)
    (arg1 : Memref sig .tc .vmem S1x512x512 .f32) (harg1 : arg1.IsWhole) (arg2 : Memref sig .tc .vmem S512x512 .f32) (harg2 : arg2.IsWhole)
    (arg3 : Memref sig .tc .vmem S512 .f32) (harg3 : arg3.IsWhole) (arg4 : Memref sig .tc .vmem S512x512 .f32) (harg4 : arg4.IsWhole)
    (arg5 : Memref sig .tc .vmem S512 .f32) (harg5 : arg5.IsWhole) (arg6 : Memref sig .tc .vmem S1x512x512 .f32) (harg6 : arg6.IsWhole)
    (arg7 : Memref sig .tc .vmem S1x512x512 .f32) (harg7 : arg7.IsWhole)
    (x0 : Vec F S1x512x512 .f32) (x1 : Vec F S512x512 .f32) (x2 : Vec F S512 .f32) (x3 : Vec F S512x512 .f32) (x4 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (attnOut x0 x1 x2 x3 x4) ∗ owns (c : Thread nD τ) arg7 fullShare (avOut x0 x1 x2 x3 x4)) -∗ K ⟨⟩))
      ⊢ wp frame (wpE (defs₀ (F := F)) Variants.none c none) E (cc0__attn_kernel i arg1 harg1 arg2 harg2 arg3 harg3 arg4 harg4 arg5 harg5 arg6 harg6 arg7 harg7) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverX _)
  iexists _; isplitr
  swap; · iexact H6
  ipureintro
  exact View.read_writes_eq_canon _ _ _ (coverX _)

/-! ## The pipeline's proof data -/

/-- The proof data of region 0 on core `c`: the arrays as the region finds them; after the body at point `t` each
    input's buffer at its block and each output's at its store over the input blocks; the invariant holds only what
    the body never touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => attnOut (iblk0 V c 0 t) (iblk0 V c 1 t) (iblk0 V c 2 t) (iblk0 V c 3 t) (iblk0 V c 4 t)
    | ⟨6, _⟩ => avOut (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = attnOut (iblk0 V c 0 t) (iblk0 V c 1 t) (iblk0 V c 2 t) (iblk0 V c 3 t) (iblk0 V c 4 t) := by dsimp only [dat0]
theorem after0_6 (c : Dev nD) (t : Fin cfg0.N) : (dat0 V c).after 6 t = avOut (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d

/-! ## The body obligation, at a generic point -/

/-- What the body is called with at point `t`: the invariant, the core's dues, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_attn c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Attn

end
-- ==== Proof.MlpRuns.lean ====
/- The second pallas_call (the MLP layer: a 32 x 262144 by 262144 x 512 product accumulated over 64 grid points of
   4096 contracted columns each, a bias row added at the end): what its three control cases share. The body
   resets its 32 x 512 accumulator under a condition on the grid coordinate (true exactly at point 0), always adds
   the point's partial product into it, and under a second condition (true exactly at point 63) adds the bias and
   stores the result into the output block. Here: the two conditions as propositions and in closed form over the
   64 points, and where the output window is idle and where it is written back. -/
import proofs.«132310_j68118181314609_1_alg».proof.Proof.Gen.KernelIdeal.Launch
import proofs.«132310_j68118181314609_1_alg».proof.Proof.Gen.KernelIdeal.Skeleton
import proofs.«132310_j68118181314609_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The condition under which the body zeroes its accumulator: the grid coordinate compared with 0, as the body's
    integer chain computes it. -/
abbrev condFirst (i : grid1.Coords) : Prop :=
  (Scalar.cmpi .ne (Scalar.extui (Scalar.cmpi .eq (BitVec.ofNat 32 (i 0).val) 0#32)) 0#32) = 1#1
/-- It holds at point 0 and nowhere else. -/
theorem hcondFirst : ∀ t : Fin cfg1.N, condFirst (grid1.coords t) ↔ t.val = 0 :=
  (by decide +kernel : ∀ t : Fin grid1.N, condFirst (grid1.coords t) ↔ t.val = 0)

/-- The condition under which the body adds the bias and stores the output block: the grid coordinate compared
    with 63. -/
abbrev condLast (i : grid1.Coords) : Prop := k1_cond2 i = 1#1
/-- It holds at point 63 and nowhere else. -/
theorem hcondLast : ∀ t : Fin cfg1.N, condLast (grid1.coords t) ↔ t.val = 63 :=
  (by decide +kernel : ∀ t : Fin grid1.N, condLast (grid1.coords t) ↔ t.val = 63)

/-- The three input windows are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Off the last point the output window is idle (the body stores nothing into it), -/
theorem idleAt_3 : ∀ t : Fin cfg1.N, ¬condLast (grid1.coords t) → cfg1.idle 3 (grid1.coords t) = true := by decide +kernel
/-- and its block is not written back there; -/
theorem noFlush_3 : ∀ t : Fin cfg1.N, ¬condLast (grid1.coords t) → (cfg1.win 3).flush t = false := by decide +kernel
/-- at the last point it is live. -/
theorem liveAt_3 : ∀ t : Fin cfg1.N, condLast (grid1.coords t) → cfg1.idle 3 (grid1.coords t) = false := by decide +kernel

/-- The offsets of a whole-buffer access are zero, however spelt. -/
theorem zero2 : (![0, 0] : Fin 2 → Nat) = fun _ => 0 := funext fun a => by fin_cases a <;> rfl
theorem zero1 : (![0] : Fin 1 → Nat) = fun _ => 0 := funext fun a => by fin_cases a <;> rfl

end Cert.KernelIdeal.Mlp

end
-- ==== Proof.MlpRunA.lean ====
/- The MLP body at the first point (the reset condition holds, the output condition does not): it stores zeros
   into the accumulator, then reads the point's two blocks and the accumulator — which now reads the zeros — and
   stores zeros + product back. The accumulator's contents on entry are never used. -/
import proofs.«132310_j68118181314609_1_alg».proof.Proof.MlpRuns

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- On whole buffers — the three inputs at `x0`, `x1`, `x2`, the output's buffer at `xi3`, the accumulator at
    anything — the body at a point where only the reset condition holds leaves everything but the accumulator as it
    was and the accumulator at `k1_pay2 x0 x1 k1_pay1` (zeros plus the product of the two blocks). -/
theorem runA (c : Dev nD) (i : grid1.Coords)
    (arg1 : Memref sig .tc .vmem S32x4096 .f32) (harg1 : arg1.IsWhole)
    (arg2 : Memref sig .tc .vmem S4096x512 .f32) (harg2 : arg2.IsWhole)
    (arg3 : Memref sig .tc .vmem S512 .f32) (harg3 : arg3.IsWhole)
    (arg4 : Memref sig .tc .vmem S32x512 .f32) (harg4 : arg4.IsWhole)
    (arg5 : Memref sig .tc .vmem S32x512 .f32) (harg5 : arg5.IsWhole)
    (hc0 : condFirst i) (hc1 : ¬condLast i)
    (x0 : Vec F S32x4096 .f32) (x1 : Vec F S4096x512 .f32) (x2 : Vec F S512 .f32)
    (xi3 : Vec F S32x512 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xi3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare xi3
            ∗ owns (c : Thread nD τ) arg5 fullShare (k1_pay2 x0 x1 (k1_pay1 (F := F)))) -∗ K ⟨⟩))
      ⊢ wp frame (wpE (defs₀ (F := F)) Variants.none c none) E
          (cc1__mlp_kernel i arg1 harg1 arg2 harg2 arg3 harg3 arg4 harg4 arg5 harg5) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.read_writes_eq_canon _ _ _ (fun y => ⟨_, List.mem_cons.mpr (Or.inl rfl), View.mem_set_unit_zero (S := S32x512) zero2 inb_S32x512_S32x512_0_0 y⟩),
    View.canon_cons_unit_zero zero2]
  simp only [View.readAt_eq_ld, View.ld_unit_zero (S := S32x4096) zero2, View.ld_unit_zero (S := S4096x512) zero2,
    View.ld_unit_zero (S := S32x512) zero2, View.ld_unit_zero (S := S512) zero1, View.readCov_unit_zero (S := S32x512) _ zero2]

end Cert.KernelIdeal.Mlp

end
-- ==== Proof.MlpRunB.lean ====
/- The MLP body at a middle point (neither condition holds): it reads the point's 32 x 4096 block of the left
   operand, its 4096 x 512 block of the right operand and the accumulator, and stores accumulator + product back.
   Every access is of a whole buffer, so the one store's payload IS what the accumulator then reads. -/
import proofs.«132310_j68118181314609_1_alg».proof.Proof.MlpRuns

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- On whole buffers — the three inputs at `x0`, `x1`, `x2`, the output's buffer at `xi3`, the accumulator at
    `xs` — the body at a point where neither condition holds leaves everything but the accumulator as it was and
    the accumulator at `k1_pay2 x0 x1 xs` (the accumulator plus the product of the two blocks). -/
theorem runB (c : Dev nD) (i : grid1.Coords)
    (arg1 : Memref sig .tc .vmem S32x4096 .f32) (harg1 : arg1.IsWhole)
    (arg2 : Memref sig .tc .vmem S4096x512 .f32) (harg2 : arg2.IsWhole)
    (arg3 : Memref sig .tc .vmem S512 .f32) (harg3 : arg3.IsWhole)
    (arg4 : Memref sig .tc .vmem S32x512 .f32) (harg4 : arg4.IsWhole)
    (arg5 : Memref sig .tc .vmem S32x512 .f32) (harg5 : arg5.IsWhole)
    (hc0 : ¬condFirst i) (hc1 : ¬condLast i)
    (x0 : Vec F S32x4096 .f32) (x1 : Vec F S4096x512 .f32) (x2 : Vec F S512 .f32)
    (xi3 : Vec F S32x512 .f32) (xs : Vec F S32x512 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare xi3
        ∗ owns (c : Thread nD τ) arg5 fullShare xs
        ∗ (iprop(owns (c : Thread nD τ) arg1 fullShare x0 ∗ owns (c : Thread nD τ) arg2 fullShare x1
            ∗ owns (c : Thread nD τ) arg3 fullShare x2 ∗ owns (c : Thread nD τ) arg4 fullShare xi3
            ∗ owns (c : Thread nD τ) arg5 fullShare (k1_pay2 x0 x1 xs)) -∗ K ⟨⟩))
      ⊢ wp frame (wpE (defs₀ (F := F)) Variants.none c none) E
          (cc1__mlp_kernel i arg1 harg1 arg2 harg2 arg3 harg3 arg4 harg4 arg5 harg5) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.read_writes_eq_canon _ _ _ (fun y => ⟨_, List.mem_cons.mpr (Or.inl rfl), View.mem_set_unit_zero (S := S32x512) zero2 inb_S32x512_S32x512_0_0 y⟩),
    View.canon_cons_unit_zero zero2]
  simp only [View.readAt_eq_ld, View.ld_unit_zero (S := S32x4096) zero2, View.ld_unit_zero (S := S4096x512) zero2,
    View.ld_unit_zero (S := S32x512) zero2, View.ld_unit_zero (S := S512) zero1, View.readCov_unit_zero (S := S32x512) _ zero2]

end Cert.KernelIdeal.Mlp

end
-- ==== Proof.MlpRunC.lean ====
/- The MLP body at the last point (the output condition holds, the reset condition does not): it adds the
   point's partial product into the accumulator as at a middle point, then reads the accumulator back and the
   bias row, and stores accumulator + bias (the row repeated down the 32 rows) into the output's buffer, whose
   contents on entry are never used. -/
import proofs.«132310_j68118181314609_1_alg».proof.Proof.MlpRuns

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- On whole buffers — the three inputs at `x0`, `x1`, `x2`, the output's buffer at anything, the accumulator
    at `xs` — the body at a point where only the output condition holds leaves the inputs as they were, the
    accumulator at `k1_pay2 x0 x1 xs` and the output's buffer at `k1_pay3` of that and the bias `x2`. -/
theorem runC (c : Dev nD) (i : grid1.Coords)
    (arg1 : Memref sig .tc .vmem S32x4096 .f32) (harg1 : arg1.IsWhole)
    (arg2 : Memref sig .tc .vmem S4096x512 .f32) (harg2 : arg2.IsWhole)
    (arg3 : Memref sig .tc .vmem S512 .f32) (harg3 : arg3.IsWhole)
    (arg4 : Memref sig .tc .vmem S32x512 .f32) (harg4 : arg4.IsWhole)
    (arg5 : Memref sig .tc .vmem S32x512 .f32) (harg5 : arg5.IsWhole)
    (hc0 : ¬condFirst i) (hc1 : condLast i)
    (x0 : Vec F S32x4096 .f32) (x1 : Vec F S4096x512 .f32) (x2 : Vec F S512 .f32)
    (xs : Vec F S32x512 .f32) (E : Set ℕ) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ owns (c : Thread nD τ) arg5 fullShare xs
        ∗ (iprop(owns (c : Thread nD τ) arg1 fullShare x0 ∗ owns (c : Thread nD τ) arg2 fullShare x1
            ∗ owns (c : Thread nD τ) arg3 fullShare x2
            ∗ owns (c : Thread nD τ) arg4 fullShare (k1_pay3 (k1_pay2 x0 x1 xs) x2)
            ∗ owns (c : Thread nD τ) arg5 fullShare (k1_pay2 x0 x1 xs)) -∗ K ⟨⟩))
      ⊢ wp frame (wpE (defs₀ (F := F)) Variants.none c none) E
          (cc1__mlp_kernel i arg1 harg1 arg2 harg2 arg3 harg3 arg4 harg4 arg5 harg5) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (fun y => ⟨_, List.mem_cons.mpr (Or.inl rfl), View.mem_set_unit_zero (S := S32x512) zero2 inb_S32x512_S32x512_0_0 y⟩),
      View.canon_cons_unit_zero zero2]
    simp only [View.readAt_eq_ld, View.ld_unit_zero (S := S32x4096) zero2, View.ld_unit_zero (S := S4096x512) zero2,
      View.ld_unit_zero (S := S32x512) zero2, View.ld_unit_zero (S := S512) zero1, View.readCov_unit_zero (S := S32x512) _ zero2]
  iexists _; isplitr
  swap; · iexact HS
  ipureintro
  sl_unfold_run_names
  rw [View.read_writes_eq_canon _ _ _ (fun y => ⟨_, List.mem_cons.mpr (Or.inl rfl), View.mem_set_unit_zero (S := S32x512) zero2 inb_S32x512_S32x512_0_0 y⟩),
    View.canon_cons_unit_zero zero2]
  simp only [View.readAt_eq_ld, View.ld_unit_zero (S := S32x4096) zero2, View.ld_unit_zero (S := S4096x512) zero2,
    View.ld_unit_zero (S := S32x512) zero2, View.ld_unit_zero (S := S512) zero1, View.readCov_unit_zero (S := S32x512) _ zero2]

end Cert.KernelIdeal.Mlp

end
-- ==== Proof.MlpRegion.lean ====
/- The second pallas_call (the MLP layer) as one region of the program, at a PARAMETER `V`: the contents of the
   core's buffers when the region is entered. Per grid point `t` (64 of them) the body adds the product of the
   point's 32 x 4096 block of the left operand and its 4096 x 512 block of the right operand into a 32 x 512
   accumulator that lives between points (zeroed at point 0); at point 63 it adds the bias row and stores the sum
   into the output block, which is written back there and nowhere else. So the accumulator after point `n` is
   the `n + 1`-fold iteration `accAt`, and the output block after the last point is `outAt` of it. This module
   states the proof data of the pipeline over those two, proves the body obligation from the three control cases'
   runs, and relates the invariant to what the region is entered and left with. -/
import proofs.«132310_j68118181314609_1_alg».proof.Proof.MlpRunA
import proofs.«132310_j68118181314609_1_alg».proof.Proof.MlpRunB
import proofs.«132310_j68118181314609_1_alg».proof.Proof.MlpRunC

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region
-- the buffer contents when the region is entered: the parameter everything here is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place: unfetched, the block index has
    not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place: unfetched, the block index has
    not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place: unfetched, the block index has
    not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the output block, point by point -/

/-- The accumulator after the body at point `n`: zeros plus the first point's product, then each point's product
    added to what the point before left. -/
def accAt (c : Dev nD) : (n : ℕ) → n < cfg1.N → Vec F S32x512 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (accAt c n (Nat.lt_of_succ_lt hn))

theorem accAt_zero (c : Dev nD) (h : 0 < cfg1.N) :
    accAt V c 0 h = k1_pay2 (iblk1 V c 0 ⟨0, h⟩) (iblk1 V c 1 ⟨0, h⟩) (k1_pay1 (F := F)) := rfl

theorem accAt_succ (c : Dev nD) (n : ℕ) (h : n + 1 < cfg1.N) :
    accAt V c (n + 1) h = k1_pay2 (iblk1 V c 0 ⟨n + 1, h⟩) (iblk1 V c 1 ⟨n + 1, h⟩) (accAt V c n (Nat.lt_of_succ_lt h)) := rfl

/-- At the first point, in the form the body obligation meets it. -/
theorem accAt_first (c : Dev nD) (t : Fin cfg1.N) (h0 : t.val = 0) :
    accAt V c t.val t.isLt = k1_pay2 (iblk1 V c 0 t) (iblk1 V c 1 t) (k1_pay1 (F := F)) := by
  obtain ⟨n, hn⟩ := t
  cases n with
  | zero => exact rfl
  | succ n => exact absurd h0 (Nat.succ_ne_zero n)

/-- At a later point: this point's product added to what the point before left. -/
theorem accAt_later (c : Dev nD) (t : Fin cfg1.N) (h0 : t.val ≠ 0) :
    accAt V c t.val t.isLt
      = k1_pay2 (iblk1 V c 0 t) (iblk1 V c 1 t) (accAt V c (t.val - 1) (Nat.lt_of_le_of_lt (Nat.sub_le _ _) t.isLt)) := by
  obtain ⟨n, hn⟩ := t
  cases n with
  | zero => exact absurd rfl h0
  | succ n => exact rfl

/-- The output window's staging buffer after the body at point `n`: the accumulator there plus the bias row. The
    body stores it at the last point only; elsewhere the window is idle and this value is not consulted. -/
def outAt (c : Dev nD) (n : ℕ) (hn : n < cfg1.N) : Vec F S32x512 .f32 :=
  k1_pay3 (accAt V c n hn) (iblk1 V c 2 ⟨n, hn⟩)

theorem outAt_last (c : Dev nD) (h : 63 < cfg1.N) :
    outAt V c 63 h = k1_pay3 (accAt V c 63 h) (iblk1 V c 2 ⟨63, h⟩) := rfl

/-! ## The invariant -/

/-- The accumulator as a memref: a whole scoped buffer of the kernel's own, passed beside the windows. -/
abbrev scM : Memref sig .tc .vmem S32x512 .f32 := Memref.whole cc1_scratch0

/-- What the region holds that its body never touches: the first pallas_call's ten staging buffers at some contents
    each, and the generator register at some state. -/
def restInv (c : Dev nD) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f))
    ∗ ∃ r, prngReg c r)

/-- The region's entry invariant spelt out: the untouched rest, and the accumulator at some contents. -/
theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ d, owns (c : Thread nD τ) scM fullShare d)) ∗ (∃ r, prngReg c r)) := by
  unfold Pipeline.ΦA; rw [scopedRest1_eq]; simp only [scM, owns_whole]; try rfl

/-- It hands out the accumulator, -/
theorem PhiA_split (c : Dev nD) :
    (Pipeline.ΦA spec1 c : sProp 𝕄) ⊢ iprop((∃ d, owns (c : Thread nD τ) scM fullShare d) ∗ restInv c) := by
  rw [PhiA_eq]; unfold restInv
  iintro ⟨⟨G0, G1, G2, G3, G4, G5, G6, G7, G8, G9, HS⟩, Hg⟩
  isplitl [HS]; · iexact HS
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  iexact G9

/-- and takes it back at any contents. -/
theorem PhiA_join (c : Dev nD) :
    iprop((∃ d, owns (c : Thread nD τ) scM fullShare d) ∗ restInv c) ⊢ (Pipeline.ΦA spec1 c : sProp 𝕄) := by
  rw [PhiA_eq]; unfold restInv
  iintro ⟨HS, ⟨G0, G1, G2, G3, G4, G5, G6, G7, G8, G9⟩, Hg⟩
  isplitr [Hg]
  swap; · iexact Hg
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  iexact HS

/-- The invariant before position `n`: on entry the region's own; after point `n` the accumulator at `accAt` of
    that point, beside the untouched rest. -/
def PhiS (c : Dev nD) : (n : ℕ) → n ≤ cfg1.N → sProp 𝕄
  | 0, _ => Pipeline.ΦA spec1 c
  | n + 1, hn => iprop(owns (c : Thread nD τ) scM fullShare (accAt V c n hn) ∗ restInv c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (accAt V c n hn) ∗ restInv c) := rfl

theorem PhiS_pos (c : Dev nD) (n : ℕ) (h : n ≤ cfg1.N) (hz : n ≠ 0) :
    PhiS V c n h = iprop(owns (c : Thread nD τ) scM fullShare (accAt V c (n - 1) (by omega)) ∗ restInv c) := by
  cases n with
  | zero => exact absurd rfl hz
  | succ n => rfl

/-! ## The pipeline's proof data -/

/-- The proof data of this pipeline on core `c`: the arrays as the region finds them; after the body at point `t`
    each input's buffer at its block and the output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the position decides the control case (first,
    middle, last), whose run applies; the invariant hands the body the accumulator — at anything at the first
    point, at what the point before left afterwards — and takes it back at this point's `accAt`; the output's
    buffer is handed back untouched where the window is idle and at `outAt` at the last point; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt_0 t], after1_0]
  rw [show (dat1 V c).leavesExact 1 t = owns (c : Thread nD τ) (st1_1 t) fullShare ((dat1 V c).after 1 t) from by
    unfold Dat.leavesExact; rw [liveAt_1 t], after1_1]
  rw [show (dat1 V c).leavesExact 2 t = owns (c : Thread nD τ) (st1_2 t) fullShare ((dat1 V c).after 2 t) from by
    unfold Dat.leavesExact; rw [liveAt_2 t], after1_2]
  rw [PhiS_castSucc V c t]
  by_cases h0 : t.val = 0
  · have h1 : ¬t.val = 63 := by omega
    rw [Dat.leavesExact_idle (dat1 V c) 3 t (idleAt_3 t (fun h => h1 ((hcondLast t).mp h))) (noFlush_3 t (fun h => h1 ((hcondLast t).mp h)))]
    rw [PhiS_zero V c _ _ h0, accAt_first V c t h0]
    iintro ⟨HΦ, Ho, ⟨%d0, H0⟩, ⟨%d1, H1⟩, ⟨%d2, H2⟩, ⟨%d3, H3⟩⟩
    icases (PhiA_split (F := F) c) $$ HΦ with ⟨HS, HR⟩
    iapply (runA c (grid1.coords t) _ _ _ _ _ _ _ _ _ _ ((hcondFirst t).mpr h0) (fun h => h1 ((hcondLast t).mp h))
      (iblk1 V c 0 t) (iblk1 V c 1 t) (iblk1 V c 2 t) _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR]
    · isplitl [HS]; · iexact HS
      iexact HR
    isplitl [Ho]; · iexact Ho
    isplitl [H0]; · iexact H0
    isplitl [H1]; · iexact H1
    isplitl [H2]; · iexact H2
    iexists _; iexact H3
  · by_cases h1 : t.val = 63
    · rw [show (dat1 V c).leavesExact 3 t = owns (c : Thread nD τ) (st1_3 t) fullShare ((dat1 V c).after 3 t) from by
        unfold Dat.leavesExact; rw [liveAt_3 t ((hcondLast t).mpr h1)], after1_3]
      unfold outAt
      rw [PhiS_pos V c _ _ h0, accAt_later V c t h0]
      iintro ⟨⟨HS, HR⟩, Ho, ⟨%d0, H0⟩, ⟨%d1, H1⟩, ⟨%d2, H2⟩, ⟨%d3, H3⟩⟩
      iapply (runC c (grid1.coords t) _ _ _ _ _ _ _ _ _ _ (fun h => h0 ((hcondFirst t).mp h)) ((hcondLast t).mpr h1)
        (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · rw [Dat.leavesExact_idle (dat1 V c) 3 t (idleAt_3 t (fun h => h1 ((hcondLast t).mp h))) (noFlush_3 t (fun h => h1 ((hcondLast t).mp h)))]
      rw [PhiS_pos V c _ _ h0, accAt_later V c t h0]
      iintro ⟨⟨HS, HR⟩, Ho, ⟨%d0, H0⟩, ⟨%d1, H1⟩, ⟨%d2, H2⟩, ⟨%d3, H3⟩⟩
      iapply (runB c (grid1.coords t) _ _ _ _ _ _ _ _ _ _ (fun h => h0 ((hcondFirst t).mp h)) (fun h => h1 ((hcondLast t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the entry invariant back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HS, HR⟩
  iapply (PhiA_join (F := F) c)
  isplitl [HS]
  · iexists _; iexact HS
  iexact HR

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region

end Cert.KernelIdeal.Mlp

end
-- ==== Proof.MainRun.lean ====
/-
  The whole program as a run: region 0 (the per-batch attention block), the host reshape of its second result
  from [32, 512, 512] to [32, 262144], region 1 (the blocked product with the last weight matrix, plus bias).
  The contents of the core's buffers are followed through the three items as a fold from the launch memory: a
  region leaves its arrays at what its write-backs folded into them and every other buffer as it found it; the host
  stretch applies its operation. Every weakly fair execution terminates with every unscoped buffer at the last
  fold; the arguments are read back through the fold to their launch contents, and the two results are the arrays
  the two regions' write-backs leave.
-/
import proofs.«132310_j68118181314609_1_alg».proof.Proof.AttnRegion
import proofs.«132310_j68118181314609_1_alg».proof.Proof.MlpRegion

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (Attn.dat0 (V0 m ρ) c).arrAt w cfg0.N
theorem W1_arr (c : Dev nD) (w : Fin cfg0.W) :
    W1 m ρ c (Proc.devRef .tc (Pipeline.arrRef spec0 w)) = (Attn.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Attn.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host reshape (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1. -/
def W3 (c : Dev nD) : Valuation τ sig (Elt F) :=
  Pipeline.withArrays spec1 c (W2 m ρ c) fun w => (Mlp.dat1 (V2 m ρ) c).arrAt w cfg1.N
theorem W3_arr (c : Dev nD) (w : Fin cfg1.W) :
    W3 m ρ c (Proc.devRef .tc (Pipeline.arrRef spec1 w)) = (Mlp.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Mlp.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: the reshape writes none, and a region only reads them -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((Attn.dat0 (V0 m ρ) c).arrAt_in 0 rfl _).trans (Attn.A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((Attn.dat0 (V0 m ρ) c).arrAt_in 1 rfl _).trans (Attn.A_eq0 (V0 m ρ) c 1))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := (W1_arr m ρ c 2).trans (((Attn.dat0 (V0 m ρ) c).arrAt_in 2 rfl _).trans (Attn.A_eq0 (V0 m ρ) c 2))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 3).trans (((Attn.dat0 (V0 m ρ) c).arrAt_in 3 rfl _).trans (Attn.A_eq0 (V0 m ρ) c 3))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := (W1_arr m ρ c 4).trans (((Attn.dat0 (V0 m ρ) c).arrAt_in 4 rfl _).trans (Attn.A_eq0 (V0 m ρ) c 4))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 1).trans (((Mlp.dat1 (V2 m ρ) c).arrAt_in 1 rfl _).trans (Mlp.A_eq1 (V2 m ρ) c 1))
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 2).trans (((Mlp.dat1 (V2 m ρ) c).arrAt_in 2 rfl _).trans (Mlp.A_eq1 (V2 m ρ) c 2))
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Attn.dat0 (V0 m ρ) c
  | ⟨1, _⟩ => fun c => Mlp.dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered with every unscoped buffer at the contents before it, left with them at
    the contents after it. Its arrays are split out of the unscoped buffers on entry and put back at their final
    contents on exit; the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Attn.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers on entry and put back at their final
    contents on exit; the generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Mlp.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m ρ 1 c).Φ 0 := by
      have h' := Mlp.hin1 (V2 m ρ) c; unfold Pipeline.ΦA at h'; exact h'
    iintro ⟨Hp, -, Hr⟩
    iapply h
    isplitl [Hr]; · iexact Hr
    iexact Hp
  hout c := by
    rw [Pipeline.ownSems0_none]
    have h : (pdats m ρ 1 c).Φ (Fin.last _) ⊢ (iprop(Pipeline.scopedRest spec1 c ∗ ∃ r, prngReg c r) : sProp 𝕄) := by
      have h' := Mlp.hout1 (V2 m ρ) c; unfold Pipeline.ΦA at h'; exact h'
    have g : (iprop(Pipeline.scopedRest spec1 c ∗ ∃ r, prngReg c r) : sProp 𝕄) ⊢ iprop((∃ r, prngReg c r) ∗ BI.emp ∗ Pipeline.scopedRest spec1 c) := by
      iintro ⟨Hr, Hp⟩
      isplitl [Hp]; · iexact Hp
      isplitr; · iempintro
      iexact Hr
    exact h.trans g
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state every unscoped buffer of every core holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c)⟩) (run_all m ρ)

end Cert.KernelIdeal.Whole

end
-- ==== Proof.AttnArrays.lean ====
/-
  Region 0's two result arrays as whole-array functions of the contents the region finds. Each staging buffer
  after the body holds one whole-buffer store, so it IS the stored payload; point t writes it back to the slab
  [t, t+1) × [0, 512) × [0, 512) of the result array; the 32 slabs cover the array. Hence each result array ends
  holding, at (b, n, m), the body's result of batch b's input blocks at (0, n, m).
-/
import proofs.«132310_j68118181314609_1_alg».proof.Proof.AttnRegion
import Idealize.ShloMosaic.Lib.Pipeline.Value
import Idealize.ShloMosaic.Lib.ValueIdx

set_option maxRecDepth 16384

noncomputable section

namespace Cert.KernelIdeal.AttnArr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

variable (V : (c : Dev nD) → (b : Ref sig .tc) → Buf (Elt F) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- One whole-buffer store of a payload over whole-buffer loads leaves the payload of the buffers' contents. -/
theorem attnOut_eq (x0 : Vec F S1x512x512 .f32) (x1 : Vec F S512x512 .f32) (x2 : Vec F S512 .f32) (x3 : Vec F S512x512 .f32) (x4 : Vec F S512 .f32) :
    Attn.attnOut x0 x1 x2 x3 x4 = k0_pay4 x0 x1 x3 x2 x4 := by
  unfold Attn.attnOut
  rw [View.canon_unit_zero hz3]
  simp only [View.ld_unit_zero (S := S1x512x512) hz3, View.ld_unit_zero (S := S512x512) hz2, View.ld_unit_zero (S := S512) hz1]

theorem avOut_eq (x0 : Vec F S1x512x512 .f32) (x1 : Vec F S512x512 .f32) (x2 : Vec F S512 .f32) (x3 : Vec F S512x512 .f32) (x4 : Vec F S512 .f32) :
    Attn.avOut x0 x1 x2 x3 x4 = k0_pay1 (k0_pay2 x0) (k0_pay5 x0 x1 x3 x2 x4) (constant S512x512 .f32 0x00000000#32) := by
  unfold Attn.avOut
  rw [View.canon_unit_zero hz3]
  simp only [View.ld_unit_zero (S := S1x512x512) hz3, View.ld_unit_zero (S := S512x512) hz2, View.ld_unit_zero (S := S512) hz1]

/-- The body's two results at point t, from the blocks the region's windows hold there (5: the attention weights,
    6: their product with the batch's x; any other number: the first). -/
def slab (c : Dev nD) (t : Fin cfg0.N) (w : Nat) : Vec F S1x512x512 .f32 :=
  if w = 6 then k0_pay1 (k0_pay2 (Attn.iblk0 V c 0 t)) (k0_pay5 (Attn.iblk0 V c 0 t) (Attn.iblk0 V c 1 t) (Attn.iblk0 V c 3 t) (Attn.iblk0 V c 2 t) (Attn.iblk0 V c 4 t)) (constant S512x512 .f32 0x00000000#32)
  else k0_pay4 (Attn.iblk0 V c 0 t) (Attn.iblk0 V c 1 t) (Attn.iblk0 V c 3 t) (Attn.iblk0 V c 2 t) (Attn.iblk0 V c 4 t)

theorem slab5 (c : Dev nD) (t : Fin cfg0.N) : slab V c t 5 = k0_pay4 (Attn.iblk0 V c 0 t) (Attn.iblk0 V c 1 t) (Attn.iblk0 V c 3 t) (Attn.iblk0 V c 2 t) (Attn.iblk0 V c 4 t) := if_neg (by decide)
theorem slab6 (c : Dev nD) (t : Fin cfg0.N) : slab V c t 6 = k0_pay1 (k0_pay2 (Attn.iblk0 V c 0 t)) (k0_pay5 (Attn.iblk0 V c 0 t) (Attn.iblk0 V c 1 t) (Attn.iblk0 V c 3 t) (Attn.iblk0 V c 2 t) (Attn.iblk0 V c 4 t)) (constant S512x512 .f32 0x00000000#32) := if_pos rfl

/-! ## Output window 5 -/

/-- The array the window's write-backs leave: at index (b, n, m) the body's result of batch b's blocks, read at (0, n, m). -/
def attnWhole (c : Dev nD) : S32x512x512.Idx → Elt F .f32 := fun i =>
  slab V c ⟨(i 0).val, lt_of_lt_of_eq (i 0).isLt N_0.symm⟩ 5 (ix3 (0 : Fin 1) (i 1) (i 2))

theorem attnWhole_at (c : Dev nD) (t : Fin cfg0.N) (i : S32x512x512.Idx) (h0 : (i 0).val = t.val) :
    attnWhole V c i = slab V c t 5 (ix3 (0 : Fin 1) (i 1) (i 2)) := by
  obtain ⟨tv, ht⟩ := t
  dsimp only at h0
  subst h0
  rfl

/-- The printed index map of the window: block t sits at (t, 0, 0). -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- What point t writes back is slab t of the whole-array function. -/
theorem flushed5_eq (c : Dev nD) (t : Fin cfg0.N) :
    (Attn.dat0 V c).flushed 5 t = ((cfg0.win 5).blk t).view.read (Elt F) (attnWhole V c) := by
  show (cfg0.win 5).cut (grid0.coords t) ((Attn.dat0 V c).after 5 t) = _
  rw [Attn.after0_5, attnOut_eq, ← slab5 V c t]
  obtain ⟨e0, e1, e2⟩ := idx5 t
  funext j
  show slab V c t 5 j = attnWhole V c (((cfg0.win 5).blk t).view.emb j)
  have hj0 : (j 0).val < 1 := (j 0).isLt
  have hj1 : (j 1).val < 512 := (j 1).isLt
  have hj2 : (j 2).val < 512 := (j 2).isLt
  rw [attnWhole_at V c t _ (show win0_5.index t (0 : Fin 3) * 1 + 1 * (j 0).val = t.val by omega)]
  show slab V c t 5 j = slab V c t 5 _
  congr 1
  funext a; apply Fin.ext
  match a with
  | ⟨0, _⟩ => show (j 0).val = 0; omega
  | ⟨1, _⟩ => show (j 1).val = win0_5.index t (1 : Fin 3) * 512 + 1 * (j 1).val; omega
  | ⟨2, _⟩ => show (j 2).val = win0_5.index t (2 : Fin 3) * 512 + 1 * (j 2).val; omega

/-- An index of the array is in point t's block iff each coordinate is in the block's range on its axis. -/
theorem mem_blk5 (t : Fin cfg0.N) (i : S32x512x512.Idx) :
    i ∈ ((cfg0.win 5).blk t).view.set ↔ ∀ a : Fin 3, win0_5.index t a * S1x512x512.size a ≤ (i a).val ∧ (i a).val < win0_5.index t a * S1x512x512.size a + S1x512x512.size a := by
  show i ∈ ((View.whole main_v0_0).slice (win0_5.rect t)).set ↔ _
  rw [View.set_slice_whole, Rect.mem_set_unit]
  exact Iff.rfl

/-- Every index of the array is in the block of the point of its batch coordinate. -/
theorem cover5 (i : S32x512x512.Idx) : ∃ t : Fin cfg0.N, (cfg0.win 5).flush t = true ∧ i ∈ ((cfg0.win 5).blk t).view.set := by
  refine ⟨⟨(i 0).val, lt_of_lt_of_eq (i 0).isLt N_0.symm⟩, flush0_5 _, ?_⟩
  rw [mem_blk5]
  obtain ⟨e0, e1, e2⟩ := idx5 ⟨(i 0).val, lt_of_lt_of_eq (i 0).isLt N_0.symm⟩
  have hi1 : (i 1).val < 512 := (i 1).isLt
  have hi2 : (i 2).val < 512 := (i 2).isLt
  intro a
  match a with
  | ⟨0, _⟩ => show win0_5.index _ (0 : Fin 3) * 1 ≤ (i 0).val ∧ (i 0).val < win0_5.index _ (0 : Fin 3) * 1 + 1; dsimp only at e0; omega
  | ⟨1, _⟩ => show win0_5.index _ (1 : Fin 3) * 512 ≤ (i 1).val ∧ (i 1).val < win0_5.index _ (1 : Fin 3) * 512 + 512; omega
  | ⟨2, _⟩ => show win0_5.index _ (2 : Fin 3) * 512 ≤ (i 2).val ∧ (i 2).val < win0_5.index _ (2 : Fin 3) * 512 + 512; omega

/-- The array after the region. -/
theorem final5 (c : Dev nD) : (Attn.dat0 V c).arrAt 5 cfg0.N = attnWhole V c :=
  (Attn.dat0 V c).arrAt_eq_of_cover 5 (attnWhole V c) (fun t _ => flushed5_eq V c t) cover5

/-! ## Output window 6 -/

/-- The array the window's write-backs leave: at index (b, n, m) the body's result of batch b's blocks, read at (0, n, m). -/
def avWhole (c : Dev nD) : S32x512x512.Idx → Elt F .f32 := fun i =>
  slab V c ⟨(i 0).val, lt_of_lt_of_eq (i 0).isLt N_0.symm⟩ 6 (ix3 (0 : Fin 1) (i 1) (i 2))

theorem avWhole_at (c : Dev nD) (t : Fin cfg0.N) (i : S32x512x512.Idx) (h0 : (i 0).val = t.val) :
    avWhole V c i = slab V c t 6 (ix3 (0 : Fin 1) (i 1) (i 2)) := by
  obtain ⟨tv, ht⟩ := t
  dsimp only at h0
  subst h0
  rfl

/-- The printed index map of the window: block t sits at (t, 0, 0). -/
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

/-- What point t writes back is slab t of the whole-array function. -/
theorem flushed6_eq (c : Dev nD) (t : Fin cfg0.N) :
    (Attn.dat0 V c).flushed 6 t = ((cfg0.win 6).blk t).view.read (Elt F) (avWhole V c) := by
  show (cfg0.win 6).cut (grid0.coords t) ((Attn.dat0 V c).after 6 t) = _
  rw [Attn.after0_6, avOut_eq, ← slab6 V c t]
  obtain ⟨e0, e1, e2⟩ := idx6 t
  funext j
  show slab V c t 6 j = avWhole V c (((cfg0.win 6).blk t).view.emb j)
  have hj0 : (j 0).val < 1 := (j 0).isLt
  have hj1 : (j 1).val < 512 := (j 1).isLt
  have hj2 : (j 2).val < 512 := (j 2).isLt
  rw [avWhole_at V c t _ (show win0_6.index t (0 : Fin 3) * 1 + 1 * (j 0).val = t.val by omega)]
  show slab V c t 6 j = slab V c t 6 _
  congr 1
  funext a; apply Fin.ext
  match a with
  | ⟨0, _⟩ => show (j 0).val = 0; omega
  | ⟨1, _⟩ => show (j 1).val = win0_6.index t (1 : Fin 3) * 512 + 1 * (j 1).val; omega
  | ⟨2, _⟩ => show (j 2).val = win0_6.index t (2 : Fin 3) * 512 + 1 * (j 2).val; omega

/-- An index of the array is in point t's block iff each coordinate is in the block's range on its axis. -/
theorem mem_blk6 (t : Fin cfg0.N) (i : S32x512x512.Idx) :
    i ∈ ((cfg0.win 6).blk t).view.set ↔ ∀ a : Fin 3, win0_6.index t a * S1x512x512.size a ≤ (i a).val ∧ (i a).val < win0_6.index t a * S1x512x512.size a + S1x512x512.size a := by
  show i ∈ ((View.whole main_v0_1).slice (win0_6.rect t)).set ↔ _
  rw [View.set_slice_whole, Rect.mem_set_unit]
  exact Iff.rfl

/-- Every index of the array is in the block of the point of its batch coordinate. -/
theorem cover6 (i : S32x512x512.Idx) : ∃ t : Fin cfg0.N, (cfg0.win 6).flush t = true ∧ i ∈ ((cfg0.win 6).blk t).view.set := by
  refine ⟨⟨(i 0).val, lt_of_lt_of_eq (i 0).isLt N_0.symm⟩, flush0_6 _, ?_⟩
  rw [mem_blk6]
  obtain ⟨e0, e1, e2⟩ := idx6 ⟨(i 0).val, lt_of_lt_of_eq (i 0).isLt N_0.symm⟩
  have hi1 : (i 1).val < 512 := (i 1).isLt
  have hi2 : (i 2).val < 512 := (i 2).isLt
  intro a
  match a with
  | ⟨0, _⟩ => show win0_6.index _ (0 : Fin 3) * 1 ≤ (i 0).val ∧ (i 0).val < win0_6.index _ (0 : Fin 3) * 1 + 1; dsimp only at e0; omega
  | ⟨1, _⟩ => show win0_6.index _ (1 : Fin 3) * 512 ≤ (i 1).val ∧ (i 1).val < win0_6.index _ (1 : Fin 3) * 512 + 512; omega
  | ⟨2, _⟩ => show win0_6.index _ (2 : Fin 3) * 512 ≤ (i 2).val ∧ (i 2).val < win0_6.index _ (2 : Fin 3) * 512 + 512; omega

/-- The array after the region. -/
theorem final6 (c : Dev nD) : (Attn.dat0 V c).arrAt 6 cfg0.N = avWhole V c :=
  (Attn.dat0 V c).arrAt_eq_of_cover 6 (avWhole V c) (fun t _ => flushed6_eq V c t) cover6

end Cert.KernelIdeal.AttnArr

end
-- ==== Proof.AttnBlocks.lean ====
/-
  Region 0's input blocks read at coordinates. Window 0's block at point t is batch t's slab of x: its entry
  (0, n, h) is x[t, n, h]. Windows 1 to 4 take their arrays whole at every point: the two weight matrices and the
  two bias vectors.
-/
import proofs.«132310_j68118181314609_1_alg».proof.Proof.AttnRegion
import Idealize.ShloMosaic.Lib.Pipeline.Value
import Idealize.ShloMosaic.Lib.ValueIdx

set_option maxRecDepth 16384

noncomputable section

namespace Cert.KernelIdeal.AttnBlk

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

variable (V : (c : Dev nD) → (b : Ref sig .tc) → Buf (Elt F) ((c : Thread nD τ).loc b))

/-- The printed index maps of the five input windows: the batch's slab for x, block (0, …) for the rest. -/
theorem idx_in : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0 :=
  (by decide +kernel : ∀ t : Fin grid0.N, _)

theorem x_apply (c : Dev nD) (t : Fin cfg0.N) (n h : Fin 512) :
    Attn.iblk0 V c 0 t (ix3 (0 : Fin 1) n h) = V c main_arg0 (ix3 (⟨t.val, lt_of_lt_of_eq t.isLt N_0⟩ : Fin 32) n h) := by
  obtain ⟨e0, e1, e2, -⟩ := idx_in t
  show V c main_arg0 (((cfg0.win 0).blk t).view.emb (ix3 (0 : Fin 1) n h)) = _
  congr 1
  funext a; apply Fin.ext
  match a with
  | ⟨0, _⟩ => show win0_0.index t (0 : Fin 3) * 1 + 1 * 0 = t.val; omega
  | ⟨1, _⟩ => show win0_0.index t (1 : Fin 3) * 512 + 1 * n.val = n.val; omega
  | ⟨2, _⟩ => show win0_0.index t (2 : Fin 3) * 512 + 1 * h.val = h.val; omega

theorem wq_apply (c : Dev nD) (t : Fin cfg0.N) (h d : Fin 512) : Attn.iblk0 V c 1 t (ix2 h d) = V c main_arg1 (ix2 h d) := by
  obtain ⟨-, -, -, e0, e1, -⟩ := idx_in t
  show V c main_arg1 (((cfg0.win 1).blk t).view.emb (ix2 h d)) = _
  congr 1
  funext a; apply Fin.ext
  match a with
  | ⟨0, _⟩ => show win0_1.index t (0 : Fin 2) * 512 + 1 * h.val = h.val; omega
  | ⟨1, _⟩ => show win0_1.index t (1 : Fin 2) * 512 + 1 * d.val = d.val; omega

theorem bq_apply (c : Dev nD) (t : Fin cfg0.N) (d : Fin 512) : Attn.iblk0 V c 2 t (ix1 d) = V c main_arg2 (ix1 d) := by
  obtain ⟨-, -, -, -, -, e0, -⟩ := idx_in t
  show V c main_arg2 (((cfg0.win 2).blk t).view.emb (ix1 d)) = _
  congr 1
  funext a; apply Fin.ext
  match a with
  | ⟨0, _⟩ => show win0_2.index t (0 : Fin 1) * 512 + 1 * d.val = d.val; omega

theorem wk_apply (c : Dev nD) (t : Fin cfg0.N) (h d : Fin 512) : Attn.iblk0 V c 3 t (ix2 h d) = V c main_arg3 (ix2 h d) := by
  obtain ⟨-, -, -, -, -, -, e0, e1, -⟩ := idx_in t
  show V c main_arg3 (((cfg0.win 3).blk t).view.emb (ix2 h d)) = _
  congr 1
  funext a; apply Fin.ext
  match a with
  | ⟨0, _⟩ => show win0_3.index t (0 : Fin 2) * 512 + 1 * h.val = h.val; omega
  | ⟨1, _⟩ => show win0_3.index t (1 : Fin 2) * 512 + 1 * d.val = d.val; omega

theorem bk_apply (c : Dev nD) (t : Fin cfg0.N) (d : Fin 512) : Attn.iblk0 V c 4 t (ix1 d) = V c main_arg4 (ix1 d) := by
  obtain ⟨-, -, -, -, -, -, -, -, e0⟩ := idx_in t
  show V c main_arg4 (((cfg0.win 4).blk t).view.emb (ix1 d)) = _
  congr 1
  funext a; apply Fin.ext
  match a with
  | ⟨0, _⟩ => show win0_4.index t (0 : Fin 1) * 512 + 1 * d.val = d.val; omega

end Cert.KernelIdeal.AttnBlk

end
-- ==== Proof.MlpArrays.lean ====
/-
  The second region's blocks read at coordinates, and its result array. The region runs 64 points. At point t the
  first window holds columns t · 4096 … t · 4096 + 4095 of the flat rows [32, 262144], the second holds rows
  t · 4096 … t · 4096 + 4095 of the weight matrix [262144, 512], the third the bias [512] whole. The result window's
  block is the whole [32, 512] array and is written back at the last point only, so the array ends holding exactly
  what the body leaves there at point 63.
-/
import proofs.«132310_j68118181314609_1_alg».proof.Proof.MlpRegion
import Idealize.ShloMosaic.Lib.Pipeline.Value
import Idealize.ShloMosaic.Lib.ValueIdx

set_option maxRecDepth 16384

noncomputable section

namespace Cert.KernelIdeal.MlpArr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

variable (V : (c : Dev nD) → (b : Ref sig .tc) → Buf (Elt F) ((c : Thread nD τ).loc b))

/-! ## The input blocks at coordinates -/

/-- The printed index maps of the four windows: block (0, t) of the flat rows, block (t, 0) of the weights, the bias
    and the result whole. -/
theorem idx_in : ∀ t : Fin cfg1.N, win1_0.index t (0 : Fin 2) = 0 ∧ win1_0.index t (1 : Fin 2) = t.val
    ∧ win1_1.index t (0 : Fin 2) = t.val ∧ win1_1.index t (1 : Fin 2) = 0 ∧ win1_2.index t (0 : Fin 1) = 0
    ∧ win1_3.index t (0 : Fin 2) = 0 ∧ win1_3.index t (1 : Fin 2) = 0 :=
  (by decide +kernel : ∀ t : Fin grid1.N, _)

/-- Point t's block of the flat rows: entry (b, r) is position t · 4096 + r of row b. -/
theorem lhs_apply (c : Dev nD) (t : Fin cfg1.N) (b : Fin 32) (r : Fin 4096) :
    Mlp.iblk1 V c 0 t (ix2 b r)
      = V c main_v1 (ix2 b (⟨t.val * 4096 + r.val, by have := lt_of_lt_of_eq t.isLt N_1; have := r.isLt; omega⟩ : Fin 262144)) := by
  obtain ⟨e0, e1, -⟩ := idx_in t
  show V c main_v1 (((cfg1.win 0).blk t).view.emb (ix2 b r)) = _
  congr 1
  funext a; apply Fin.ext
  match a with
  | ⟨0, _⟩ => show win1_0.index t (0 : Fin 2) * 32 + 1 * b.val = b.val; omega
  | ⟨1, _⟩ => show win1_0.index t (1 : Fin 2) * 4096 + 1 * r.val = t.val * 4096 + r.val; omega

/-- Point t's block of the weights: entry (r, j) is row t · 4096 + r, column j. -/
theorem wm_apply (c : Dev nD) (t : Fin cfg1.N) (r : Fin 4096) (j : Fin 512) :
    Mlp.iblk1 V c 1 t (ix2 r j)
      = V c main_arg5 (ix2 (⟨t.val * 4096 + r.val, by have := lt_of_lt_of_eq t.isLt N_1; have := r.isLt; omega⟩ : Fin 262144) j) := by
  obtain ⟨-, -, e0, e1, -⟩ := idx_in t
  show V c main_arg5 (((cfg1.win 1).blk t).view.emb (ix2 r j)) = _
  congr 1
  funext a; apply Fin.ext
  match a with
  | ⟨0, _⟩ => show win1_1.index t (0 : Fin 2) * 4096 + 1 * r.val = t.val * 4096 + r.val; omega
  | ⟨1, _⟩ => show win1_1.index t (1 : Fin 2) * 512 + 1 * j.val = j.val; omega

/-- The bias is taken whole at every point. -/
theorem bm_apply (c : Dev nD) (t : Fin cfg1.N) (j : Fin 512) : Mlp.iblk1 V c 2 t (ix1 j) = V c main_arg6 (ix1 j) := by
  obtain ⟨-, -, -, -, e0, -⟩ := idx_in t
  show V c main_arg6 (((cfg1.win 2).blk t).view.emb (ix1 j)) = _
  congr 1
  funext a; apply Fin.ext
  match a with
  | ⟨0, _⟩ => show win1_2.index t (0 : Fin 1) * 512 + 1 * j.val = j.val; omega

/-! ## The result array -/

/-- The result window's block is the whole array, so what a point writes back is what the body left, entry for entry. -/
theorem flushed3_of (c : Dev nD) (t : Fin cfg1.N) (G : S32x512.Idx → Elt F .f32) (h : (Mlp.dat1 V c).after 3 t = G) :
    (Mlp.dat1 V c).flushed 3 t = ((cfg1.win 3).blk t).view.read (Elt F) G := by
  show (cfg1.win 3).cut (grid1.coords t) ((Mlp.dat1 V c).after 3 t) = _
  rw [h]
  obtain ⟨-, -, -, -, -, e0, e1⟩ := idx_in t
  funext j
  show G j = G (((cfg1.win 3).blk t).view.emb j)
  congr 1
  funext a; apply Fin.ext
  match a with
  | ⟨0, _⟩ => show (j 0).val = win1_3.index t (0 : Fin 2) * 32 + 1 * (j 0).val; omega
  | ⟨1, _⟩ => show (j 1).val = win1_3.index t (1 : Fin 2) * 512 + 1 * (j 1).val; omega

/-- The one point that writes the result back is the last, and it writes the last step's value. -/
theorem flushed3_eq (c : Dev nD) (t : Fin cfg1.N) (hf : (cfg1.win 3).flush t = true) :
    (Mlp.dat1 V c).flushed 3 t
      = ((cfg1.win 3).blk t).view.read (Elt F) (Mlp.outAt V c 63 (by rw [show cfg1.N = 64 from N_1]; decide)) := by
  have h63 : t.val = 63 := by
    have h := (flush1_3 t).mp hf
    have := lt_of_lt_of_eq t.isLt N_1
    omega
  obtain ⟨tv, ht⟩ := t
  dsimp only at h63
  subst h63
  exact flushed3_of V c _ _ (Mlp.after1_3 V c _)

/-- An index of the array is in point t's block iff each coordinate is in the block's range on its axis. -/
theorem mem_blk3 (t : Fin cfg1.N) (i : S32x512.Idx) :
    i ∈ ((cfg1.win 3).blk t).view.set ↔ ∀ a : Fin 2, win1_3.index t a * S32x512.size a ≤ (i a).val ∧ (i a).val < win1_3.index t a * S32x512.size a + S32x512.size a := by
  show i ∈ ((View.whole main_v2).slice (win1_3.rect t)).set ↔ _
  rw [View.set_slice_whole, Rect.mem_set_unit]
  exact Iff.rfl

/-- Every index of the result lies in the last point's block, which is the whole array. -/
theorem cover3 (i : S32x512.Idx) : ∃ t : Fin cfg1.N, (cfg1.win 3).flush t = true ∧ i ∈ ((cfg1.win 3).blk t).view.set := by
  refine ⟨⟨63, by rw [show cfg1.N = 64 from N_1]; decide⟩, (flush1_3 _).mpr (by decide), ?_⟩
  rw [mem_blk3]
  obtain ⟨-, -, -, -, -, e0, e1⟩ := idx_in ⟨63, by rw [show cfg1.N = 64 from N_1]; decide⟩
  have hi0 : (i 0).val < 32 := (i 0).isLt
  have hi1 : (i 1).val < 512 := (i 1).isLt
  intro a
  match a with
  | ⟨0, _⟩ => show win1_3.index _ (0 : Fin 2) * 32 ≤ (i 0).val ∧ (i 0).val < win1_3.index _ (0 : Fin 2) * 32 + 32; omega
  | ⟨1, _⟩ => show win1_3.index _ (1 : Fin 2) * 512 ≤ (i 1).val ∧ (i 1).val < win1_3.index _ (1 : Fin 2) * 512 + 512; omega

/-- The result array after the region is the value the last step leaves. -/
theorem final3 (c : Dev nD) :
    (Mlp.dat1 V c).arrAt 3 cfg1.N = Mlp.outAt V c 63 (by rw [show cfg1.N = 64 from N_1]; decide) :=
  (Mlp.dat1 V c).arrAt_eq_of_cover 3 (Mlp.outAt V c 63 _) (fun t hf => flushed3_eq V c t hf) cover3

end Cert.KernelIdeal.MlpArr

end
-- ==== Proof.Spec.lean ====
/-
  The mathematical content of the certificate, stated once and free of any program.

  The inputs are x[32,512,512], two square weight matrices with their biases, and a last weight matrix
  Wm[262144,512] with its bias, all read as arrays of extended reals.  Index by index:

    q[b,n,d]   = (∑ h, x[b,n,h] · Wq[h,d]) + bq[d]            (k likewise from Wk, bk)
    s[b,n,m]   = (∑ d, q[b,n,d] · k[b,m,d]) / D               D the real 11863283/524288
    g[b,n,m]   = 1 / (1 + exp(−s[b,n,m]))                     the logistic function of s
    a[b,n,m]   = exp(g[b,n,m] − max_m g[b,n,·]) / ∑_m exp(g[b,n,m] − max_m g[b,n,·])
    av[b,n,h]  = ∑ m, a[b,n,m] · x[b,m,h]
    out[b,j]   = (∑ K, av[b, K / 512, K % 512] · Wm[K,j]) + bm[j]        K ranging over 262144 = 512 · 512

  The two results are the array a and the array out.  The divisor D is kept as the 32-bit pattern that
  denotes it; the maximum starts from the pattern of −∞ and the row sum from the pattern of 0, and small
  lemmas say what those starting values amount to.  Two laws that let differently arranged computations
  meet this specification close the file: dividing by D is multiplying by 524288/11863283 on every
  extended real, and a sum over 262144 terms is the sum of its 64 consecutive blocks of 4096, also when
  the blocks are added one after another into a running total that starts at zero.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Shapes -/

/-- Arrays indexed by (batch, row, column): 32 × 512 × 512. -/
abbrev SX : Shape := ⟨3, ![32, 512, 512]⟩
/-- The square weight matrices: 512 × 512. -/
abbrev SW : Shape := ⟨2, ![512, 512]⟩
/-- The bias vectors: 512. -/
abbrev SV : Shape := ⟨1, ![512]⟩
/-- The last weight matrix: 262144 × 512. -/
abbrev SM : Shape := ⟨2, ![262144, 512]⟩
/-- The first result: 32 × 512. -/
abbrev SO : Shape := ⟨2, ![32, 512]⟩

/-! ## The constants' patterns -/

/-- The pattern 0x41B504F3 denotes the real 11863283/524288 = (2²³ + 3474675) · 2⁻¹⁹. -/
theorem ofBits_D : Ideal.ofBits .f32 0x41B504F3#32 = ((11863283 / 524288 : ℝ) : EReal) := by
  simp [Ideal.ofBits, Ideal.ieee, -EReal.coe_mul]; norm_num

/-- The pattern of 1.0 denotes 1. -/
theorem ofBits_one : Ideal.ofBits .f32 0x3F800000#32 = 1 := by
  simp [Ideal.ofBits, Ideal.ieee, -EReal.coe_mul]; norm_num

/-- The pattern of −∞ denotes the least extended real. -/
theorem ofBits_neg_inf : Ideal.ofBits .f32 0xFF800000#32 = ⊥ := by
  simp [Ideal.ofBits, Ideal.ieee]

/-- The pattern of +0.0 denotes 0. -/
theorem ofBits_zero : Ideal.ofBits .f32 0x00000000#32 = 0 := Ideal.ofBits_zero_f32

/-! ## The specification, index by index -/

section
variable (x : SX.Idx → EReal) (Wq : SW.Idx → EReal) (bq : SV.Idx → EReal) (Wk : SW.Idx → EReal) (bk : SV.Idx → EReal)
  (Wm : SM.Idx → EReal) (bm : SV.Idx → EReal)

/-- A projection: row n of batch b times column d of the weights, plus the bias at d. -/
def q (x : SX.Idx → EReal) (W : SW.Idx → EReal) (b : SV.Idx → EReal) (bb : Fin 32) (n : Fin 512) (d : Fin 512) : EReal :=
  (∑ h : Fin 512, x (ix3 bb n h) * W (ix2 h d)) + b (ix1 d)

/-- The second projection is the same function of its own weights and bias. -/
def k (x : SX.Idx → EReal) (W : SW.Idx → EReal) (b : SV.Idx → EReal) (bb : Fin 32) (n : Fin 512) (d : Fin 512) : EReal :=
  (∑ h : Fin 512, x (ix3 bb n h) * W (ix2 h d)) + b (ix1 d)

theorem k_eq_q : @k = @q := rfl

/-- The score of rows n and m of batch b: the inner product of their projections, divided by D. -/
def score (bb : Fin 32) (n m : Fin 512) : EReal :=
  Ideal.div (∑ d : Fin 512, q x Wq bq bb n d * k x Wk bk bb m d) (Ideal.ofBits .f32 0x41B504F3#32)

/-- The gate: the logistic function of the score. -/
def gate (bb : Fin 32) (n m : Fin 512) : EReal :=
  Ideal.logistic (score x Wq bq Wk bk bb n m)

/-- Spelt out, the logistic function is 1 / (1 + exp(−s)). -/
theorem gate_eq (bb : Fin 32) (n m : Fin 512) :
    gate x Wq bq Wk bk bb n m = Ideal.div 1 (1 + Ideal.exp (-(score x Wq bq Wk bk bb n m))) := rfl

/-- The same with each 1 written as the pattern of 1.0. -/
theorem gate_eq_ofBits (bb : Fin 32) (n m : Fin 512) :
    gate x Wq bq Wk bk bb n m
      = Ideal.div (Ideal.ofBits .f32 0x3F800000#32)
          (Ideal.ofBits .f32 0x3F800000#32 + Ideal.exp (-(score x Wq bq Wk bk bb n m))) := by
  rw [ofBits_one]; rfl

/-- The greatest gate of row n: the maximum over m, started from the pattern of −∞, and once more compared with it. -/
def rowMax (bb : Fin 32) (n : Fin 512) : EReal :=
  max (Ideal.ofBits .f32 0xFF800000#32)
    ((Finset.univ : Finset (Fin 512)).fold max (Ideal.ofBits .f32 0xFF800000#32) (fun m => gate x Wq bq Wk bk bb n m))

/-- The outer comparison with −∞ changes nothing. -/
theorem rowMax_eq_fold (bb : Fin 32) (n : Fin 512) :
    rowMax x Wq bq Wk bk bb n
      = (Finset.univ : Finset (Fin 512)).fold max (Ideal.ofBits .f32 0xFF800000#32) (fun m => gate x Wq bq Wk bk bb n m) := by
  unfold rowMax; rw [ofBits_neg_inf]; exact max_eq_right bot_le

/-- The row maximum is the supremum of the row's gates. -/
theorem rowMax_eq_sup (bb : Fin 32) (n : Fin 512) :
    rowMax x Wq bq Wk bk bb n = (Finset.univ : Finset (Fin 512)).sup (fun m => gate x Wq bq Wk bk bb n m) := by
  rw [rowMax_eq_fold, ofBits_neg_inf]; rfl

/-- The exponential of a gate less its row's maximum. -/
def rowExp (bb : Fin 32) (n m : Fin 512) : EReal :=
  Ideal.exp (gate x Wq bq Wk bk bb n m - rowMax x Wq bq Wk bk bb n)

/-- The sum of a row's exponentials, started from the pattern of 0. -/
def rowSum (bb : Fin 32) (n : Fin 512) : EReal :=
  Ideal.ofBits .f32 0x00000000#32 + ∑ m : Fin 512, rowExp x Wq bq Wk bk bb n m

/-- The starting value 0 changes nothing. -/
theorem rowSum_eq_sum (bb : Fin 32) (n : Fin 512) :
    rowSum x Wq bq Wk bk bb n = ∑ m : Fin 512, rowExp x Wq bq Wk bk bb n m := by
  unfold rowSum; rw [ofBits_zero, zero_add]

/-- The attention weight: a row's exponential divided by the row's sum. -/
def attn (bb : Fin 32) (n m : Fin 512) : EReal :=
  Ideal.div (rowExp x Wq bq Wk bk bb n m) (rowSum x Wq bq Wk bk bb n)

/-- The attention weights of row n applied to column h of the batch's own rows. -/
def av (bb : Fin 32) (n h : Fin 512) : EReal :=
  ∑ m : Fin 512, attn x Wq bq Wk bk bb n m * x (ix3 bb m h)

/-- Rows laid end to end: position K of the flat row holds entry (K / 512, K % 512). -/
def flat (bb : Fin 32) (K : Fin 262144) : EReal :=
  av x Wq bq Wk bk bb ⟨K.val / 512, by have := K.isLt; omega⟩ ⟨K.val % 512, Nat.mod_lt _ (by decide)⟩

/-- Entry (n, h) sits at position n · 512 + h. -/
theorem flat_mk (bb : Fin 32) (n h : Fin 512) :
    flat x Wq bq Wk bk bb ⟨n.val * 512 + h.val, by have := n.isLt; have := h.isLt; omega⟩ = av x Wq bq Wk bk bb n h := by
  unfold flat
  congr 1 <;> exact Fin.ext (by have := n.isLt; have := h.isLt; simp only; omega)

/-- The first result: the flat row times column j of the last weights, plus the bias at j. -/
def out (bb : Fin 32) (j : Fin 512) : EReal :=
  (∑ K : Fin 262144, flat x Wq bq Wk bk bb K * Wm (ix2 K j)) + bm (ix1 j)

/-- The attention weights as a whole array. -/
def attnArr : SX.Idx → EReal := fun i => attn x Wq bq Wk bk (i 0) (i 1) (i 2)

/-- The first result as a whole array. -/
def outArr : SO.Idx → EReal := fun i => out x Wq bq Wk bk Wm bm (i 0) (i 1)

theorem attnArr_ix3 (bb : Fin 32) (n m : Fin 512) :
    attnArr x Wq bq Wk bk (ix3 bb n m) = attn x Wq bq Wk bk bb n m := rfl

theorem outArr_ix2 (bb : Fin 32) (j : Fin 512) :
    outArr x Wq bq Wk bk Wm bm (ix2 bb j) = out x Wq bq Wk bk Wm bm bb j := rfl

end

/-! ## Dividing by D is multiplying by its reciprocal -/

/-- On every extended real, the infinities included, the product with 524288/11863283 is the quotient by D. -/
theorem scale_law (t : EReal) :
    t * ((524288 / 11863283 : ℝ) : EReal) = Ideal.div t (Ideal.ofBits .f32 0x41B504F3#32) := by
  rw [ofBits_D, Ideal.div_coe (by norm_num : (11863283 / 524288 : ℝ) ≠ 0)]
  norm_num

/-! ## A long sum by blocks -/

/-- A sum over 262144 = 64 · 4096 positions is the sum over the 64 blocks of the sums inside each block. -/
theorem sum_blocks {M : Type*} [AddCommMonoid M] (f : Fin 262144 → M) :
    ∑ K, f K = ∑ t : Fin 64, ∑ j : Fin 4096, f ⟨t.val * 4096 + j.val, by have := t.isLt; have := j.isLt; omega⟩ := by
  rw [← Fintype.sum_prod_type' (f := fun (t : Fin 64) (j : Fin 4096) =>
    f ⟨t.val * 4096 + j.val, by have := t.isLt; have := j.isLt; omega⟩)]
  refine (Fintype.sum_equiv (finProdFinEquiv (m := 64) (n := 4096)) _ f (fun p => ?_)).symm
  exact congrArg f (Fin.ext (by simp only [finProdFinEquiv_apply_val]; ring))

/-- The first n blocks, added one after another into a total that starts at zero. -/
theorem running_blocks {M : Type*} [AddCommMonoid M] (f : Fin 262144 → M) (acc : ℕ → M) (h0 : acc 0 = 0)
    (hs : ∀ t : Fin 64, acc (t.val + 1)
      = acc t.val + ∑ j : Fin 4096, f ⟨t.val * 4096 + j.val, by have := t.isLt; have := j.isLt; omega⟩) :
    ∀ (n : ℕ) (hn : n ≤ 64), acc n
      = ∑ t : Fin n, ∑ j : Fin 4096, f ⟨t.val * 4096 + j.val, by have := t.isLt; have := j.isLt; omega⟩ := by
  intro n
  induction n with
  | zero => intro _; rw [h0]; rfl
  | succ n ih =>
    intro hn
    rw [Fin.sum_univ_castSucc]
    refine (hs ⟨n, by omega⟩).trans ?_
    rw [ih (by omega)]
    rfl

/-- After all 64 blocks the running total is the whole sum. -/
theorem running_total {M : Type*} [AddCommMonoid M] (f : Fin 262144 → M) (acc : ℕ → M) (h0 : acc 0 = 0)
    (hs : ∀ t : Fin 64, acc (t.val + 1)
      = acc t.val + ∑ j : Fin 4096, f ⟨t.val * 4096 + j.val, by have := t.isLt; have := j.isLt; omega⟩) :
    acc 64 = ∑ K, f K := by
  rw [sum_blocks]; exact running_blocks f acc h0 hs 64 le_rfl

end Cert.Spec

end
-- ==== Proof.MlpTotal.lean ====
/-
  The arithmetic of the second kernel, the one that multiplies the flat rows [32, 262144] by the last
  weight matrix [262144, 512] in 64 steps of 4096 contracted positions each.

  Its three pure values are read here at a point (b, j) of the [32, 512] result: the starting accumulator
  is zero; one step adds to the accumulator the product of a [32, 4096] block of the flat rows with a
  [4096, 512] block of the weights, Σ_r L[b, r] · W[r, j] (the narrowing of both blocks to a shorter
  float format is the identity on extended reals, and the product into a zero accumulator is the plain
  sum); the last step adds the bias, a vector [512] laid out as one row and copied down the 32 rows.
  When block t of the flat rows holds positions t · 4096 … t · 4096 + 4095 and block t of the weights the
  same rows of the weight matrix, the accumulator after all 64 steps is the whole contraction
  Σ_K lhs[b, K] · Wm[K, j]: a sum over 262144 positions is the sum of its 64 consecutive blocks, and
  adding zero first changes nothing.  Only the commutative-monoid laws of addition are used, so nothing
  is asked of the entries.  Last, the reshape that lays a [32, 512, 512] array out as [32, 262144]
  puts entry (b, K / 512, K % 512) at position (b, K).
-/
import proofs.«132310_j68118181314609_1_alg».proof.Proof.Gen.KernelIdeal.Skeleton
import proofs.«132310_j68118181314609_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.MlpTot

open Cert.KernelIdeal Cert.KernelIdeal.Gen Idealize.ShloMosaic Idealize.ShloMosaic.ValueIdx

/-! ## The contraction's operand indices, in coordinates -/

theorem lhs_0 (i : S32x512.Idx) (q : dot_S32x4096_S4096x512_S32x512_1_0_0_1_n_n.contr.Idx) :
    (dot_S32x4096_S4096x512_S32x512_1_0_0_1_n_n.lhsIdx i q 0).val = (i 0).val := by
  unfold DotDims.lhsIdx
  rw [dif_neg (show ¬(0 : Fin S32x4096.rank) ∈ dot_S32x4096_S4096x512_S32x512_1_0_0_1_n_n.lhsBatch by decide),
    dif_pos (show (0 : Fin S32x4096.rank) ∈ dot_S32x4096_S4096x512_S32x512_1_0_0_1_n_n.lhsNonContracting by decide)]
  rfl
theorem lhs_1 (i : S32x512.Idx) (q : dot_S32x4096_S4096x512_S32x512_1_0_0_1_n_n.contr.Idx) :
    (dot_S32x4096_S4096x512_S32x512_1_0_0_1_n_n.lhsIdx i q 1).val = (q ⟨0, by decide⟩).val :=
  dot_S32x4096_S4096x512_S32x512_1_0_0_1_n_n.lhsIdx_val_of_single rfl i q
theorem rhs_0 (i : S32x512.Idx) (q : dot_S32x4096_S4096x512_S32x512_1_0_0_1_n_n.contr.Idx) :
    (dot_S32x4096_S4096x512_S32x512_1_0_0_1_n_n.rhsIdx i q 0).val = (q ⟨0, by decide⟩).val :=
  dot_S32x4096_S4096x512_S32x512_1_0_0_1_n_n.rhsIdx_val_of_single rfl i q
theorem rhs_1 (i : S32x512.Idx) (q : dot_S32x4096_S4096x512_S32x512_1_0_0_1_n_n.contr.Idx) :
    (dot_S32x4096_S4096x512_S32x512_1_0_0_1_n_n.rhsIdx i q 1).val = (i 1).val := by
  unfold DotDims.rhsIdx
  rw [dif_neg (show ¬(1 : Fin S4096x512.rank) ∈ dot_S32x4096_S4096x512_S32x512_1_0_0_1_n_n.rhsBatch by decide),
    dif_pos (show (1 : Fin S4096x512.rank) ∈ dot_S32x4096_S4096x512_S32x512_1_0_0_1_n_n.rhsNonContracting by decide)]
  rfl

/-- A [32, 4096] by [4096, 512] product into a zero accumulator, at (b, j): the sum over the 4096 contracted positions. -/
theorem matmul_zero_apply {φ₁ φ₂ : FTy} (L : FVec Ideal S32x4096 φ₁) (W : FVec Ideal S4096x512 φ₂) (b : Fin 32) (j : Fin 512) :
    matmul dot_S32x4096_S4096x512_S32x512_1_0_0_1_n_n none L W (constant S32x512 .f32 0x00000000#32) (ix2 b j)
      = ∑ r : Fin 4096, L (ix2 b r) * W (ix2 r j) := by
  simp only [matmul]
  rw [Ideal.matmul_constant_zero_apply,
    ← Equiv.sum_comp (contrEquiv1 dot_S32x4096_S4096x512_S32x512_1_0_0_1_n_n 4096 rfl rfl).symm]
  refine Finset.sum_congr rfl fun r _ => ?_
  have hr := contrEquiv1_symm_val dot_S32x4096_S4096x512_S32x512_1_0_0_1_n_n 4096 rfl rfl r
  have el : dot_S32x4096_S4096x512_S32x512_1_0_0_1_n_n.lhsIdx (ix2 b j)
      ((contrEquiv1 dot_S32x4096_S4096x512_S32x512_1_0_0_1_n_n 4096 rfl rfl).symm r) = ix2 b r :=
    funext fun a => Fin.ext (by
      match a with
      | ⟨0, _⟩ => exact lhs_0 _ _
      | ⟨1, _⟩ => exact (lhs_1 _ _).trans hr)
  have er : dot_S32x4096_S4096x512_S32x512_1_0_0_1_n_n.rhsIdx (ix2 b j)
      ((contrEquiv1 dot_S32x4096_S4096x512_S32x512_1_0_0_1_n_n 4096 rfl rfl).symm r) = ix2 r j :=
    funext fun a => Fin.ext (by
      match a with
      | ⟨0, _⟩ => exact (rhs_0 _ _).trans hr
      | ⟨1, _⟩ => exact rhs_1 _ _)
  rw [el, er]

/-! ## The three pure values at a point -/

/-- The starting accumulator is zero everywhere. -/
theorem zero_apply (b : Fin 32) (j : Fin 512) : k1_pay1 (F := Ideal) (ix2 b j) = 0 := by
  unfold k1_pay1
  simp only [shapeCast_self]
  exact Ideal.ofBits_zero_f32

/-- One step: the accumulator plus the product of the two blocks. -/
theorem acc_apply (v3 : Vec Ideal S32x4096 .f32) (v6 : Vec Ideal S4096x512 .f32) (v8 : Vec Ideal S32x512 .f32)
    (b : Fin 32) (j : Fin 512) :
    k1_pay2 (F := Ideal) v3 v6 v8 (ix2 b j) = v8 (ix2 b j) + ∑ r : Fin 4096, v3 (ix2 b r) * v6 (ix2 r j) := by
  unfold k1_pay2
  simp only [shapeCast_self]
  refine (addf_apply _ _ _).trans ?_
  rw [matmul_zero_apply]
  rfl

/-- The last step: the accumulator plus the bias of column j. -/
theorem bias_apply (v17 : Vec Ideal S32x512 .f32) (v18 : Vec Ideal S512 .f32) (b : Fin 32) (j : Fin 512) :
    k1_pay3 (F := Ideal) v17 v18 (ix2 b j) = v17 (ix2 b j) + v18 (ix1 j) := by
  unfold k1_pay3
  refine (addf_apply _ _ _).trans ?_
  rw [broadcastTo_1b_ab_apply, shapeCast_a_1a_apply]

/-! ## All 64 steps -/

section Total
variable (lhs : S32x262144.Idx → EReal) (Wm : S262144x512.Idx → EReal)
  (blkL : Fin 64 → Vec Ideal S32x4096 .f32) (blkW : Fin 64 → Vec Ideal S4096x512 .f32)
  (hL : ∀ (t : Fin 64) (b : Fin 32) (r : Fin 4096),
    blkL t (ix2 b r) = lhs (ix2 b (⟨t.val * 4096 + r.val, by have := t.isLt; have := r.isLt; omega⟩ : Fin 262144)))
  (hW : ∀ (t : Fin 64) (r : Fin 4096) (j : Fin 512),
    blkW t (ix2 r j) = Wm (ix2 (⟨t.val * 4096 + r.val, by have := t.isLt; have := r.isLt; omega⟩ : Fin 262144) j))
  (acc : (n : ℕ) → n < 64 → Vec Ideal S32x512 .f32)
  (h0 : acc 0 (by decide) = k1_pay2 (blkL 0) (blkW 0) (k1_pay1 (F := Ideal)))
  (hs : ∀ n (hn : n + 1 < 64), acc (n + 1) hn = k1_pay2 (blkL ⟨n + 1, hn⟩) (blkW ⟨n + 1, hn⟩) (acc n (by omega)))

include hL hW h0 hs

/-- After step n the accumulator holds the first n + 1 blocks of the contraction. -/
theorem acc_partial (b : Fin 32) (j : Fin 512) : ∀ (n : ℕ) (hn : n < 64), acc n hn (ix2 b j)
    = ∑ t : Fin (n + 1), ∑ r : Fin 4096,
        lhs (ix2 b (⟨t.val * 4096 + r.val, by have := t.isLt; have := r.isLt; omega⟩ : Fin 262144))
          * Wm (ix2 (⟨t.val * 4096 + r.val, by have := t.isLt; have := r.isLt; omega⟩ : Fin 262144) j) := by
  intro n
  induction n with
  | zero =>
    intro _
    rw [h0, acc_apply, zero_apply, zero_add, Fin.sum_univ_one]
    exact Finset.sum_congr rfl fun r _ => by rw [hL, hW]; rfl
  | succ n ih =>
    intro hn
    rw [hs n hn, acc_apply, ih (by omega), Fin.sum_univ_castSucc (n := n + 1)]
    refine congrArg (_ + ·) (Finset.sum_congr rfl fun r _ => ?_)
    rw [hL, hW]; rfl

/-- After the last step the accumulator holds the whole contraction over the 262144 positions. -/
theorem acc_total (b : Fin 32) (j : Fin 512) :
    acc 63 (by decide) (ix2 b j) = ∑ K : Fin 262144, lhs (ix2 b K) * Wm (ix2 K j) := by
  rw [acc_partial lhs Wm blkL blkW hL hW acc h0 hs b j 63 (by decide),
    Spec.sum_blocks (fun K : Fin 262144 => lhs (ix2 b K) * Wm (ix2 K j))]

/-- And the kernel's result adds the bias. -/
theorem out_total (bias : Vec Ideal S512 .f32) (b : Fin 32) (j : Fin 512) :
    k1_pay3 (acc 63 (by decide)) bias (ix2 b j) = (∑ K : Fin 262144, lhs (ix2 b K) * Wm (ix2 K j)) + bias (ix1 j) := by
  rw [bias_apply, acc_total lhs Wm blkL blkW hL hW acc h0 hs b j]

end Total

/-! ## The reshape between the two kernels -/

/-- A [32, 512, 512] array laid out as [32, 262144]: position (b, K) holds entry (b, K / 512, K % 512). -/
theorem reshape_apply {α : Type} (a : S32x512x512.Idx → α) (h : S32x512x512.ShapeCasts S32x262144) (b : Fin 32)
    (K : Fin 262144) :
    shapeCast S32x262144 a h (ix2 b K)
      = a (ix3 b (⟨K.val / 512, by have := K.isLt; omega⟩ : Fin 512) (⟨K.val % 512, Nat.mod_lt _ (by decide)⟩ : Fin 512)) :=
  shapeCast_apply a h _ _ (by
    have hb := b.isLt; have hK := K.isLt
    rw [Shape.rowMajor_val_three, Shape.rowMajor_val_two]
    show (b.val * 512 + K.val / 512) * 512 + K.val % 512 = b.val * 262144 + K.val
    omega)

end Cert.KernelIdeal.MlpTot

end
-- ==== Proof.MlpJoin.lean ====
/-
  The second region's result at a point, as a function of the three arrays the region finds.

  The region's 64 steps each add the product of one [32, 4096] block of the flat rows with the matching
  [4096, 512] block of the weights into an accumulator that starts at zero, and the last step adds the bias.
  Block t of either array holds exactly positions t · 4096 … t · 4096 + 4095 of the contracted axis, so the
  accumulator ends at the whole contraction: entry (b, j) of the result is
  Σ_K flat[b, K] · Wm[K, j] + bm[j], K over all 262144 positions.
-/
import proofs.«132310_j68118181314609_1_alg».proof.Proof.MlpArrays
import proofs.«132310_j68118181314609_1_alg».proof.Proof.MlpTotal

set_option maxRecDepth 16384

noncomputable section

open scoped BigOperators

namespace Cert.KernelIdeal.MlpJoin

open Cert.KernelIdeal Cert.KernelIdeal.Gen
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- A step number below 64 is a point of the region's grid. -/
theorem lt64 {n : ℕ} (h : n < 64) : n < cfg1.N := lt_of_lt_of_eq h N_1.symm

/-- The value the last step leaves, at (b, j): the whole contraction of flat row b with column j of the weights, plus
    the bias at j. The three arrays are named by what the region finds in their buffers. -/
theorem out_join_of (c : Dev nD) (lhs : S32x262144.Idx → EReal) (Wm : S262144x512.Idx → EReal) (bm : S512.Idx → EReal)
    (hl : V c main_v1 = lhs) (hw : V c main_arg5 = Wm) (hb : V c main_arg6 = bm) (b : Fin 32) (j : Fin 512) :
    Mlp.outAt V c 63 (lt64 (by decide)) (ix2 b j) = (∑ K : Fin 262144, lhs (ix2 b K) * Wm (ix2 K j)) + bm (ix1 j) := by
  subst hl hw hb
  rw [Mlp.outAt_last]
  refine (MlpTot.out_total (V c main_v1) (V c main_arg5)
    (fun t => Mlp.iblk1 V c 0 ⟨t.val, lt64 t.isLt⟩) (fun t => Mlp.iblk1 V c 1 ⟨t.val, lt64 t.isLt⟩)
    (fun t b r => MlpArr.lhs_apply V c ⟨t.val, lt64 t.isLt⟩ b r) (fun t r j => MlpArr.wm_apply V c ⟨t.val, lt64 t.isLt⟩ r j)
    (fun n hn => Mlp.accAt V c n (lt64 hn)) (Mlp.accAt_zero V c _) (fun n hn => Mlp.accAt_succ V c n _)
    (Mlp.iblk1 V c 2 ⟨63, lt64 (by decide)⟩) b j).trans ?_
  rw [MlpArr.bm_apply]

/-- What the region finds in the buffers of its three input arrays, as arrays of extended reals. -/
abbrev flatIn (c : Dev nD) : S32x262144.Idx → EReal := V c main_v1
abbrev wmIn (c : Dev nD) : S262144x512.Idx → EReal := V c main_arg5
abbrev bmIn (c : Dev nD) : S512.Idx → EReal := V c main_arg6

/-- The same with the three arrays the buffers' contents themselves. -/
theorem out_join (c : Dev nD) (b : Fin 32) (j : Fin 512) :
    Mlp.outAt V c 63 (lt64 (by decide)) (ix2 b j)
      = (∑ K : Fin 262144, flatIn V c (ix2 b K) * wmIn V c (ix2 K j)) + bmIn V c (ix1 j) :=
  out_join_of V c _ _ _ rfl rfl rfl b j

/-- So the result array after the region holds, at (b, j), that contraction plus the bias. -/
theorem final_join_of (c : Dev nD) (lhs : S32x262144.Idx → EReal) (Wm : S262144x512.Idx → EReal) (bm : S512.Idx → EReal)
    (hl : V c main_v1 = lhs) (hw : V c main_arg5 = Wm) (hb : V c main_arg6 = bm) (b : Fin 32) (j : Fin 512) :
    (Mlp.dat1 V c).arrAt 3 cfg1.N (ix2 b j) = (∑ K : Fin 262144, lhs (ix2 b K) * Wm (ix2 K j)) + bm (ix1 j) := by
  rw [MlpArr.final3]
  exact out_join_of V c lhs Wm bm hl hw hb b j

end Cert.KernelIdeal.MlpJoin

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«132310_j68118181314609_1_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibRowLanes.lean ====
/-
  Matrices `[a, b]` handled along their rows, read at coordinates, at the ideal values.

  * a sum over the last axis, at row `i`, is the sum over `k` of the entries `(i, k)`; a maximum over it is the fold
    of `max` over those entries from the accumulator's value;
  * a matrix product into a zero accumulator whose dimension numbers contract the LAST axis of both operands —
    rows against rows, `A · Bᵀ` — is at `(p, q)` the sum over `j` of `A (p, j) · B (q, j)`. The four coordinate facts
    of the dimension numbers are hypotheses (each record proves them by unfolding).
-/
import Idealize.ShloMosaic.Lib.ValueIdx
import Idealize.ShloMosaic.PureOps.Ideal.Laws

noncomputable section

namespace Cert.LibRowLanes

open Idealize.ShloMosaic Idealize.ShloMosaic.ValueIdx
open scoped BigOperators

/-- The index `i` of `[a]` with `k` inserted on the last axis of `[a, b]` is `(i, k)`. -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A float sum over the last axis, read at row `i` on the extended reals: the sum of the entries `(i, k)`. -/
theorem sum_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (i : Fin a) :
    multiReduction .add [1] ⟨1, ![a]⟩ v acc h hφ hacc (ix1 i) = ∑ k : Fin b, v (ix2 i k) := by
  refine (Ideal.multiReduction_add_single v acc h hφ hacc (ix1 i)).trans ?_
  exact Finset.sum_congr rfl fun k _ => congrArg v (lift_row h i k)

/-- A float maximum over the last axis, read at row `i`: the fold of `max` over the entries `(i, k)` from the
    accumulator's value. -/
theorem max_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (i : Fin a) :
    multiReduction .maximumf [1] ⟨1, ![a]⟩ v acc h hφ hacc (ix1 i)
      = (Finset.univ : Finset (Fin b)).fold max (Ideal.ofBits .f32 acc) (fun k => v (ix2 i k)) := by
  refine (Ideal.multiReduction_maximumf_single v acc h hφ hacc (ix1 i)).trans ?_
  exact congrArg (Finset.univ.fold max (Ideal.ofBits .f32 acc)) (funext fun k => congrArg v (lift_row h i k))

/-- Rows against rows: the matrix product into zeros that contracts the last axis of both operands is, at entry
    `(p, q)`, the sum over the contraction position of `A (p, ·) · B (q, ·)`. -/
theorem matmul_zero_rows_rows {n k c : Nat} {φ₁ φ₂ : FTy}
    (D : DotDims ⟨2, ![n, k]⟩ ⟨2, ![c, k]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (i 1).val)
    (r1 : ∀ (i : (⟨2, ![n, c]⟩ : Shape).Idx) (q : D.contr.Idx), (D.rhsIdx i q 1).val = (q ⟨0, by omega⟩).val)
    (prec : Option ContractPrecision) (A : FVec Ideal ⟨2, ![n, k]⟩ φ₁) (B : FVec Ideal ⟨2, ![c, k]⟩ φ₂)
    (p : Fin n) (q : Fin c) :
    matmul D prec A B (constant ⟨2, ![n, c]⟩ .f32 0x00000000#32) (ix2 p q) = ∑ j : Fin k, A (ix2 p j) * B (ix2 q j) := by
  show FloatOps.matmul D prec A B (constant ⟨2, ![n, c]⟩ .f32 0x00000000#32) (ix2 p q) = _
  rw [Ideal.matmul_constant_zero_apply, ← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 q j := funext fun ax => Fin.ext (by
    match ax with
    | ⟨0, _⟩ => exact r0 _ _
    | ⟨1, _⟩ => exact (r1 _ _).trans hk)
  rw [el, er]

end Cert.LibRowLanes

end
-- ==== Proof.Payloads.lean ====
/-
  The two arrays the attention body writes for one batch element, read entry by entry on the extended reals.

  The body takes the batch's block x[1,512,512] and the weights and biases whole. Every change of float format is
  the identity here, so entry by entry:
    • each projection is rows against columns plus the bias,  (∑ h, x(n,h)·W(h,d)) + b(d);
    • the scores are rows of one projection against rows of the other, ∑ d, q(n,d)·k(m,d), times the named
      reciprocal 524288/11863283, which on every extended real is the quotient by D = 11863283/524288;
    • the gate is the logistic function of that; a row's maximum is the fold of max from −∞, compared once more
      with −∞; the exponentials of gate − maximum are summed along the row from 0, and each is divided by its row's sum;
    • the second array is those weights, rows against the columns of the block itself.
  The body is cut into its stages as functions of abstract arrays; each stage is read at an index once, and the
  stages are then matched one by one with the specification's definitions.
-/
import proofs.«132310_j68118181314609_1_alg».proof.Proof.Gen.KernelIdeal.Skeleton
import proofs.«132310_j68118181314609_1_alg».proof.Proof.Spec
import proofs.«132310_j68118181314609_1_alg».proof.Proof.LibRowsDot
import proofs.«132310_j68118181314609_1_alg».proof.Proof.LibKeepdims
import proofs.«132310_j68118181314609_1_alg».proof.Proof.LibRowLanes
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Pay

open Cert.KernelIdeal Cert.KernelIdeal.Gen
open Idealize.ShloMosaic Idealize.ShloMosaic.ValueIdx
open scoped BigOperators

/-! ## The two kinds of matrix product: where each operand is read -/

/-- Rows against columns: the left operand is read at the result's row … -/
theorem mm_l0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
/-- … and the contraction position, -/
theorem mm_l1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- the right operand at the contraction position … -/
theorem mm_r0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- … and the result's column. -/
theorem mm_r1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- Rows against rows: the left operand is read at the result's row … -/
theorem tt_l0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl
/-- … and the contraction position, -/
theorem tt_l1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
/-- the right operand at the result's COLUMN, taken as one of its rows, … -/
theorem tt_r0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl
/-- … and the contraction position. -/
theorem tt_r1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-! ## The body's stages, as functions of abstract arrays -/

/-- One projection: the block's rows against the weights' columns, plus the bias laid along every row. -/
def kproj (xb : FVec Ideal S512x512 .bf16) (W : Vec Ideal S512x512 .f32) (bv : Vec Ideal S512 .f32) : FVec Ideal S512x512 .f32 :=
  addf (matmul dot_S512x512_S512x512_S512x512_1_0_0_1_n_n none xb (truncf .bf16 W bitsLt_bf16_f32) (constant S512x512 .f32 0x00000000#32))
    (broadcastTo S512x512 (shapeCast S1x512 bv shapeCasts_S512_S1x512) broadcasts_S1x512_S512x512)

/-- The raw scores: rows of one projection against rows of the other. -/
def kscore (Q K : FVec Ideal S512x512 .f32) : FVec Ideal S512x512 .f32 :=
  matmul dot_S512x512_S512x512_S512x512_1_1_0_0_n_n none (truncf .bf16 Q bitsLt_bf16_f32) (truncf .bf16 K bitsLt_bf16_f32)
    (constant S512x512 .f32 0x00000000#32)

/-- The gate: the logistic function of the scores times the named reciprocal. -/
def kgate (s : FVec Ideal S512x512 .f32) : FVec Ideal S512x512 .f32 :=
  logistic (mulf s (broadcast S512x512 (Named.named κ "inv_sqrt_d" 0x3D3504F3#32)))

/-- Each row's maximum, from −∞, and compared once more with −∞. -/
def kmax (g : FVec Ideal S512x512 .f32) : FVec Ideal S512 .f32 :=
  maximumf (broadcast S512 (Scalar.ofBits .f32 0xFF800000#32))
    (multiReduction .maximumf [1] S512 g 0xFF800000#32 reduces_S512x512_S512 (.inl rfl) rfl)

/-- The exponentials of the entries less their row's maximum. -/
def kexp (g : FVec Ideal S512x512 .f32) : FVec Ideal S512x512 .f32 :=
  exp (subf g (broadcastTo S512x512 (shapeCast S512x1 (kmax g) shapeCasts_S512_S512x1) broadcasts_S512x1_S512x512))

/-- Each row's sum of exponentials, from 0. -/
def ksum (g : FVec Ideal S512x512 .f32) : FVec Ideal S512 .f32 :=
  multiReduction .add [1] S512 (kexp g) 0x00000000#32 reduces_S512x512_S512 (.inl rfl) rfl

/-- Each exponential divided by its row's sum. -/
def ksoft (g : FVec Ideal S512x512 .f32) : FVec Ideal S512x512 .f32 :=
  divf (kexp g) (broadcastTo S512x512 (shapeCast S512x1 (ksum g) shapeCasts_S512_S512x1) broadcasts_S512x1_S512x512)

/-- The body's weights are these stages composed: the same operations in the same order. -/
theorem pay3_eq (v0 : Vec Ideal S1x512x512 .f32) (v3 v5 : Vec Ideal S512x512 .f32) (v7 v8 : Vec Ideal S512 .f32) :
    k0_pay3 (F := Ideal) v0 v3 v5 v7 v8
      = ksoft (kgate (kscore (kproj (k0_pay2 v0) v3 v7) (kproj (k0_pay2 v0) v5 v8))) := rfl

/-! ## Each stage at an index -/

/-- The block with its unit batch axis dropped: entry (n, h) is the block's entry (0, n, h). -/
theorem xblk_apply (x0 : Vec Ideal S1x512x512 .f32) (n h : Fin 512) :
    k0_pay2 (F := Ideal) x0 (ix2 n h) = x0 (ix3 (0 : Fin 1) n h) := by
  show shapeCast S512x512 x0 shapeCasts_S1x512x512_S512x512 (ix2 n h) = _
  exact shapeCast_1ab_ab_apply x0 shapeCasts_S1x512x512_S512x512 n h

/-- A projection at (n, d): row n against column d, plus the bias at d. -/
theorem kproj_apply (xb : FVec Ideal S512x512 .bf16) (W : Vec Ideal S512x512 .f32) (bv : Vec Ideal S512 .f32) (n d : Fin 512) :
    kproj xb W bv (ix2 n d) = (∑ h : Fin 512, xb (ix2 n h) * W (ix2 h d)) + bv (ix1 d) := by
  show matmul dot_S512x512_S512x512_S512x512_1_0_0_1_n_n none xb (truncf .bf16 W bitsLt_bf16_f32) (constant S512x512 .f32 0x00000000#32) (ix2 n d)
      + broadcastTo S512x512 (shapeCast S1x512 bv shapeCasts_S512_S1x512) broadcasts_S1x512_S512x512 (ix2 n d) = _
  rw [Cert.Sage.matmul_zero_rows dot_S512x512_S512x512_S512x512_1_0_0_1_n_n rfl rfl mm_l0 mm_l1 mm_r0 mm_r1 none xb
      (truncf .bf16 W bitsLt_bf16_f32) n d,
    broadcastTo_1b_ab_apply, shapeCast_a_1a_apply]
  rfl

/-- A raw score at (n, m): row n of the first projection against row m of the second. -/
theorem kscore_apply (Q K : FVec Ideal S512x512 .f32) (n m : Fin 512) :
    kscore Q K (ix2 n m) = ∑ d : Fin 512, Q (ix2 n d) * K (ix2 m d) :=
  Cert.LibRowLanes.matmul_zero_rows_rows dot_S512x512_S512x512_S512x512_1_1_0_0_n_n rfl rfl tt_l0 tt_l1 tt_r0 tt_r1 none
    (truncf .bf16 Q bitsLt_bf16_f32) (truncf .bf16 K bitsLt_bf16_f32) n m

/-- The named constant is the rational the certificate's table gives it. -/
theorem inv_sqrt_d :
    Named.named (F := Ideal) κ "inv_sqrt_d" (φ := .f32) 0x3D3504F3#32 = ((524288 / 11863283 : ℝ) : EReal) :=
  IdealRules.named_const.ideal_named_scalar _ _ _ _ rfl

/-- The gate at (n, m): the product with the named reciprocal is the quotient by D, on every extended real. -/
theorem kgate_apply (s : FVec Ideal S512x512 .f32) (n m : Fin 512) :
    kgate s (ix2 n m) = Ideal.logistic (Ideal.div (s (ix2 n m)) (Ideal.ofBits .f32 0x41B504F3#32)) := by
  show Ideal.logistic (s (ix2 n m) * Named.named (F := Ideal) κ "inv_sqrt_d" (φ := .f32) 0x3D3504F3#32) = _
  rw [inv_sqrt_d, Spec.scale_law]

/-- A row's maximum at n. -/
theorem kmax_apply (g : FVec Ideal S512x512 .f32) (n : Fin 512) :
    kmax g (ix1 n) = max (Ideal.ofBits .f32 0xFF800000#32)
      ((Finset.univ : Finset (Fin 512)).fold max (Ideal.ofBits .f32 0xFF800000#32) (fun m => g (ix2 n m))) := by
  show max (Ideal.ofBits .f32 0xFF800000#32)
    (multiReduction .maximumf [1] S512 g 0xFF800000#32 reduces_S512x512_S512 (.inl rfl) rfl (ix1 n)) = _
  exact congrArg (max (Ideal.ofBits .f32 0xFF800000#32))
    (Cert.LibRowLanes.max_row_apply g 0xFF800000#32 reduces_S512x512_S512 (.inl rfl) rfl n)

/-- An exponential at (n, m): the column of maxima is read at row n. -/
theorem kexp_apply (g : FVec Ideal S512x512 .f32) (n m : Fin 512) :
    kexp g (ix2 n m) = Ideal.exp (g (ix2 n m) - kmax g (ix1 n)) := by
  show Ideal.exp (g (ix2 n m)
    - broadcastTo S512x512 (shapeCast S512x1 (kmax g) shapeCasts_S512_S512x1) broadcasts_S512x1_S512x512 (ix2 n m)) = _
  rw [Cert.LibKeepdims.broadcastTo_a1_ab_apply, Cert.LibKeepdims.shapeCast_a_a1_apply]

/-- A row's sum at n. -/
theorem ksum_apply (g : FVec Ideal S512x512 .f32) (n : Fin 512) :
    ksum g (ix1 n) = ∑ m : Fin 512, kexp g (ix2 n m) :=
  Cert.LibRowLanes.sum_row_apply (kexp g) 0x00000000#32 reduces_S512x512_S512 (.inl rfl) rfl n

/-- A weight at (n, m): the column of sums is read at row n. -/
theorem ksoft_apply (g : FVec Ideal S512x512 .f32) (n m : Fin 512) :
    ksoft g (ix2 n m) = Ideal.div (kexp g (ix2 n m)) (ksum g (ix1 n)) := by
  show Ideal.div (kexp g (ix2 n m))
    (broadcastTo S512x512 (shapeCast S512x1 (ksum g) shapeCasts_S512_S512x1) broadcasts_S512x1_S512x512 (ix2 n m)) = _
  rw [Cert.LibKeepdims.broadcastTo_a1_ab_apply, Cert.LibKeepdims.shapeCast_a_a1_apply]

/-! ## The stages are the specification's -/

section
variable (x0 : Vec Ideal S1x512x512 .f32) (x1 x3 : Vec Ideal S512x512 .f32) (x2 x4 : Vec Ideal S512 .f32)
  (x : Spec.SX.Idx → EReal) (Wq : Spec.SW.Idx → EReal) (bq : Spec.SV.Idx → EReal) (Wk : Spec.SW.Idx → EReal) (bk : Spec.SV.Idx → EReal)
  (b : Fin 32)

/-- A projection of the block is the specification's projection of batch b. -/
theorem proj_spec (W' : Vec Ideal S512x512 .f32) (b' : Vec Ideal S512 .f32) (W : Spec.SW.Idx → EReal) (bv : Spec.SV.Idx → EReal)
    (hx : ∀ n h : Fin 512, x0 (ix3 (0 : Fin 1) n h) = x (ix3 b n h))
    (hW : ∀ h d : Fin 512, W' (ix2 h d) = W (ix2 h d)) (hb : ∀ d : Fin 512, b' (ix1 d) = bv (ix1 d)) (n d : Fin 512) :
    kproj (k0_pay2 x0) W' b' (ix2 n d) = Spec.q x W bv b n d := by
  rw [kproj_apply, hb d]
  unfold Spec.q
  refine congrArg (· + bv (ix1 d)) (Finset.sum_congr rfl fun h _ => ?_)
  rw [xblk_apply, hx n h, hW h d]

/-- The body's weights at (n, m) are the specification's attention weights of batch b. -/
theorem pay3_apply
    (hx : ∀ n h : Fin 512, x0 (ix3 (0 : Fin 1) n h) = x (ix3 b n h))
    (h1 : ∀ h d : Fin 512, x1 (ix2 h d) = Wq (ix2 h d)) (h3 : ∀ h d : Fin 512, x3 (ix2 h d) = Wk (ix2 h d))
    (h2 : ∀ d : Fin 512, x2 (ix1 d) = bq (ix1 d)) (h4 : ∀ d : Fin 512, x4 (ix1 d) = bk (ix1 d)) (n m : Fin 512) :
    k0_pay3 (F := Ideal) x0 x1 x3 x2 x4 (ix2 n m) = Spec.attn x Wq bq Wk bk b n m := by
  have hq := proj_spec x0 x b x1 x2 Wq bq hx h1 h2
  have hk : ∀ n d : Fin 512, kproj (k0_pay2 x0) x3 x4 (ix2 n d) = Spec.k x Wk bk b n d := proj_spec x0 x b x3 x4 Wk bk hx h3 h4
  rw [pay3_eq]
  generalize kproj (k0_pay2 x0) x1 x2 = Q at hq ⊢
  generalize kproj (k0_pay2 x0) x3 x4 = K at hk ⊢
  have hg : ∀ n m : Fin 512, kgate (kscore Q K) (ix2 n m) = Spec.gate x Wq bq Wk bk b n m := fun n m => by
    rw [kgate_apply, kscore_apply]
    unfold Spec.gate Spec.score
    exact congrArg (fun t => Ideal.logistic (Ideal.div t (Ideal.ofBits .f32 0x41B504F3#32)))
      (Finset.sum_congr rfl fun d _ => by rw [hq n d, hk m d])
  generalize kgate (kscore Q K) = G at hg ⊢
  have hmax : ∀ n : Fin 512, kmax G (ix1 n) = Spec.rowMax x Wq bq Wk bk b n := fun n => by
    rw [kmax_apply]
    unfold Spec.rowMax
    exact congrArg (fun f => max (Ideal.ofBits .f32 0xFF800000#32)
      ((Finset.univ : Finset (Fin 512)).fold max (Ideal.ofBits .f32 0xFF800000#32) f)) (funext fun m => hg n m)
  have hexp : ∀ n m : Fin 512, kexp G (ix2 n m) = Spec.rowExp x Wq bq Wk bk b n m := fun n m => by
    rw [kexp_apply, hg n m, hmax n]
    rfl
  have hsum : ∀ n : Fin 512, ksum G (ix1 n) = Spec.rowSum x Wq bq Wk bk b n := fun n => by
    rw [ksum_apply, Spec.rowSum_eq_sum]
    exact Finset.sum_congr rfl fun m _ => hexp n m
  rw [ksoft_apply, hexp n m, hsum n]
  rfl

/-- The first array the body writes: the attention weights of batch b, under a unit batch axis. -/
theorem attn_apply
    (hx : ∀ n h : Fin 512, x0 (ix3 (0 : Fin 1) n h) = x (ix3 b n h))
    (h1 : ∀ h d : Fin 512, x1 (ix2 h d) = Wq (ix2 h d)) (h3 : ∀ h d : Fin 512, x3 (ix2 h d) = Wk (ix2 h d))
    (h2 : ∀ d : Fin 512, x2 (ix1 d) = bq (ix1 d)) (h4 : ∀ d : Fin 512, x4 (ix1 d) = bk (ix1 d)) (n m : Fin 512) :
    k0_pay4 (F := Ideal) x0 x1 x3 x2 x4 (ix3 (0 : Fin 1) n m) = Spec.attn x Wq bq Wk bk b n m := by
  refine Eq.trans ?_ (pay3_apply x0 x1 x3 x2 x4 x Wq bq Wk bk b hx h1 h3 h2 h4 n m)
  show shapeCast S1x512x512 (k0_pay3 (F := Ideal) x0 x1 x3 x2 x4) shapeCasts_S512x512_S1x512x512 (ix3 (0 : Fin 1) n m) = _
  exact shapeCast_ab_1ab_apply (k0_pay3 (F := Ideal) x0 x1 x3 x2 x4) shapeCasts_S512x512_S1x512x512 0 n m

/-- The second array the body writes: the weights' rows against the block's columns, under a unit batch axis. -/
theorem av_apply
    (hx : ∀ n h : Fin 512, x0 (ix3 (0 : Fin 1) n h) = x (ix3 b n h))
    (h1 : ∀ h d : Fin 512, x1 (ix2 h d) = Wq (ix2 h d)) (h3 : ∀ h d : Fin 512, x3 (ix2 h d) = Wk (ix2 h d))
    (h2 : ∀ d : Fin 512, x2 (ix1 d) = bq (ix1 d)) (h4 : ∀ d : Fin 512, x4 (ix1 d) = bk (ix1 d)) (n h : Fin 512) :
    k0_pay1 (F := Ideal) (k0_pay2 x0) (k0_pay5 x0 x1 x3 x2 x4) (constant (F := Ideal) S512x512 .f32 0x00000000#32) (ix3 (0 : Fin 1) n h)
      = Spec.av x Wq bq Wk bk b n h := by
  have hp := pay3_apply x0 x1 x3 x2 x4 x Wq bq Wk bk b hx h1 h3 h2 h4
  generalize hA : k0_pay3 (F := Ideal) x0 x1 x3 x2 x4 = A at hp
  show shapeCast S1x512x512 (matmul dot_S512x512_S512x512_S512x512_1_0_0_1_n_n none
      (truncf .bf16 (k0_pay3 (F := Ideal) x0 x1 x3 x2 x4) bitsLt_bf16_f32) (k0_pay2 x0) (constant S512x512 .f32 0x00000000#32))
    shapeCasts_S512x512_S1x512x512 (ix3 (0 : Fin 1) n h) = _
  rw [hA, shapeCast_ab_1ab_apply,
    Cert.Sage.matmul_zero_rows dot_S512x512_S512x512_S512x512_1_0_0_1_n_n rfl rfl mm_l0 mm_l1 mm_r0 mm_r1 none
      (truncf .bf16 A bitsLt_bf16_f32) (k0_pay2 x0) n h]
  unfold Spec.av
  refine Finset.sum_congr rfl fun m _ => ?_
  show A (ix2 n m) * k0_pay2 (F := Ideal) x0 (ix2 m h) = _
  rw [hp n m, xblk_apply, hx m h]

end

end Cert.KernelIdeal.Pay

end
-- ==== Proof.Values.lean ====
/-
  The idealized kernel's two results as the specification's functions of the argument arrays.
  Region 0 leaves in its first result array, at (b, n, m), the softmax of the sigmoid of the scaled scores of
  batch b — the named scale 1/D times the score sum is the reference's quotient by D — and in its second, at
  (b, n, h), the attention row against x's column. The reshape reads the second as [32, 262144]. Region 1's
  scratch after point t holds the sum of the first t+1 blocks of 4096 products, so after the last point the whole
  sum over 262144, to which the last point adds the bias before writing the result array whole.
-/
import proofs.«132310_j68118181314609_1_alg».proof.Proof.MainRun
import proofs.«132310_j68118181314609_1_alg».proof.Proof.AttnArrays
import proofs.«132310_j68118181314609_1_alg».proof.Proof.AttnBlocks
import proofs.«132310_j68118181314609_1_alg».proof.Proof.MlpArrays
import proofs.«132310_j68118181314609_1_alg».proof.Proof.MlpJoin
import proofs.«132310_j68118181314609_1_alg».proof.Proof.Payloads
import proofs.«132310_j68118181314609_1_alg».proof.Proof.MlpTotal
import proofs.«132310_j68118181314609_1_alg».proof.Proof.Spec
import Idealize.ShloMosaic.Lib.StableHlo.Run

set_option maxRecDepth 16384

noncomputable section

namespace Cert.KernelIdeal.Val

open Cert.KernelIdeal Cert.KernelIdeal.Gen Cert.KernelIdeal.Whole
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## Region 0 -/

/-- The first result array after region 0: the specification's attention weights. -/
theorem attn_arr (c : Dev nD) :
    (W1 m ρ c (Proc.devRef .tc main_v0_0) : S32x512x512.Idx → EReal) = Spec.attnArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W1_arr m ρ c 5).trans ((AttnArr.final5 (V0 m ρ) c).trans ?_)
  funext i
  obtain ⟨b, n, k, rfl⟩ : ∃ (b : Fin 32) (n k : Fin 512), i = ix3 b n k := ⟨i 0, i 1, i 2, eq_ix3 i⟩
  rw [AttnArr.attnWhole_at (V0 m ρ) c ⟨b.val, lt_of_lt_of_eq b.isLt N_0.symm⟩ _ rfl, AttnArr.slab5]
  exact Pay.attn_apply _ _ _ _ _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b
    (fun n h => AttnBlk.x_apply (V0 m ρ) c _ n h) (fun h d => AttnBlk.wq_apply (V0 m ρ) c _ h d) (fun h d => AttnBlk.wk_apply (V0 m ρ) c _ h d)
    (fun d => AttnBlk.bq_apply (V0 m ρ) c _ d) (fun d => AttnBlk.bk_apply (V0 m ρ) c _ d) n k

/-- The second result array after region 0: attention weights times x, batch by batch. -/
theorem av_arr (c : Dev nD) (b : Fin 32) (n h : Fin 512) :
    (W1 m ρ c (Proc.devRef .tc main_v0_1) : S32x512x512.Idx → EReal) (ix3 b n h) = Spec.av (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b n h := by
  rw [show W1 m ρ c (Proc.devRef .tc main_v0_1) = AttnArr.avWhole (V0 m ρ) c from (W1_arr m ρ c 6).trans (AttnArr.final6 (V0 m ρ) c)]
  rw [AttnArr.avWhole_at (V0 m ρ) c ⟨b.val, lt_of_lt_of_eq b.isLt N_0.symm⟩ _ rfl, AttnArr.slab6]
  exact Pay.av_apply _ _ _ _ _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b
    (fun n h => AttnBlk.x_apply (V0 m ρ) c _ n h) (fun h d => AttnBlk.wq_apply (V0 m ρ) c _ h d) (fun h d => AttnBlk.wk_apply (V0 m ρ) c _ h d)
    (fun d => AttnBlk.bq_apply (V0 m ρ) c _ d) (fun d => AttnBlk.bk_apply (V0 m ρ) c _ d) n h

/-! ## The host reshape -/

theorem v1_eq (c : Dev nD) :
    (V2 m ρ c main_v1 : S32x262144.Idx → EReal) = shapeCast S32x262144 (W1 m ρ c (Proc.devRef .tc main_v0_1) : S32x512x512.Idx → EReal) shapeCasts_S32x512x512_S32x262144 := by
  show StableHlo.after hostOps1 (W1 m ρ c) (Proc.devRef .tc main_v1) = _
  after_results; rfl

theorem v1_apply (c : Dev nD) (b : Fin 32) (K : Fin 262144) :
    (V2 m ρ c main_v1 : S32x262144.Idx → EReal) (ix2 b K) = Spec.flat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b K := by
  rw [v1_eq, MlpTot.reshape_apply, av_arr]; rfl

theorem not_written (c : Dev nD) (r : Ref sig .tc) (h : r ≠ main_v1) : V2 m ρ c r = W1 m ρ c (Proc.devRef .tc r) := by
  show StableHlo.after hostOps1 (W1 m ρ c) (Proc.devRef .tc r) = _
  exact StableHlo.after_of_forall_not_mem (b := Proc.devRef .tc r) _ _ (List.forall_iff_forall_mem.mp (by
    simp only [hostOps1, List.Forall, StableHlo.reshape_writes, Finset.mem_singleton]
    exact StableHlo.devRef_ne_of_ne h))

/-! ## Region 1 -/

theorem arg5_eq (c : Dev nD) : V2 m ρ c main_arg5 = m ((c.tc : Thread nD τ).loc main_arg5) :=
  (not_written m ρ c main_arg5 (by decide)).trans (W1_of_ne m ρ c main_arg5 (by decide))
theorem arg6_eq (c : Dev nD) : V2 m ρ c main_arg6 = m ((c.tc : Thread nD τ).loc main_arg6) :=
  (not_written m ρ c main_arg6 (by decide)).trans (W1_of_ne m ρ c main_arg6 (by decide))

/-- The last result array: the specification's output. -/
theorem out_arr (c : Dev nD) :
    (W3 m ρ c (Proc.devRef .tc main_v2) : S32x512.Idx → EReal) = Spec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W3_arr m ρ c 3).trans ?_
  funext i
  obtain ⟨b, j, rfl⟩ : ∃ (b : Fin 32) (j : Fin 512), i = ix2 b j := ⟨i 0, i 1, eq_ix2 i⟩
  rw [MlpJoin.final_join_of (V2 m ρ) c (V2 m ρ c main_v1) (m ((c.tc : Thread nD τ).loc main_arg5)) (m ((c.tc : Thread nD τ).loc main_arg6)) rfl (arg5_eq m ρ c) (arg6_eq m ρ c) b j]
  show _ = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b j
  unfold Spec.out
  exact congrArg₂ (· + ·) (Finset.sum_congr rfl fun K _ => by rw [v1_apply]) rfl

/-! ## The run, read -/

/-- Every weakly fair execution of the idealized kernel terminates with its two results at the specification's
    arrays of the launch arguments, and the arguments unchanged. -/
theorem run : θ_run defs (onTc (τ := τ) (main (F := Ideal))) ⟨m, fun _ => 0, ρ⟩ (fun r => ∀ c : Dev nD,
      r.2.mem ((c.tc : Thread nD τ).loc main_v2) = Spec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_0) = Spec.attnArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v2 (by decide))).trans (out_arr m ρ c),
    (h c _ (mem_uc main_v0_0 (by decide))).trans ((W3_of_ne m ρ c main_v0_0 (by decide)).trans ((not_written m ρ c main_v0_0 (by decide)).trans (attn_arr m ρ c))),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c)⟩) (run_all m ρ)

end Cert.KernelIdeal.Val

end
-- ==== Proof.RefValue.lean ====
/-
  The reference program's two results are the specification's two arrays.

  The reference computes, one whole-array operation at a time, exactly the chain the specification states
  index by index: two projections with their biases, the inner products of projected rows divided by the
  constant D, the logistic function spelt 1 / (1 + exp(−s)), a softmax along the last axis (maximum started
  from −∞ and compared with −∞ once more, exponential of the difference, sum started from 0, quotient), the
  product of the weights with the batch's own rows, the rows laid end to end, and the last product with its
  bias.  Each lemma below reads one of these stages at a point given by its coordinates and finds the
  specification's function of the same name there; a broadcast reads its operand at the coordinates it
  keeps, a contraction is the sum over the contracted coordinate, the reshape sends position K of a flat
  row to entry (K / 512, K % 512).  Nothing here needs the entries to be finite.
-/
import proofs.«132310_j68118181314609_1_alg».proof.Proof.Gen.ReferenceIdeal.Read
import proofs.«132310_j68118181314609_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem

variable (x0 : S32x512x512.Idx → EReal) (x1 : S512x512.Idx → EReal) (x2 : S512.Idx → EReal) (x3 : S512x512.Idx → EReal)
  (x4 : S512.Idx → EReal) (x5 : S262144x512.Idx → EReal) (x6 : S512.Idx → EReal)

/-! ## Where each stage reads its operands, in coordinates -/

theorem lidx_v0 (b : Fin 32) (n d k : Fin 512) : lidx_main_v0 (ix3 b n d) k = ix3 b n k :=
  funext fun a => by match a with | ⟨0, _⟩ => rfl | ⟨1, _⟩ => rfl | ⟨2, _⟩ => rfl
theorem ridx_v0 (b : Fin 32) (n d k : Fin 512) : ridx_main_v0 (ix3 b n d) k = ix2 k d :=
  funext fun a => by match a with | ⟨0, _⟩ => rfl | ⟨1, _⟩ => rfl
theorem idx_v2 (b : Fin 32) (n d : Fin 512) : idx_main_v1 (idx_main_v2 (ix3 b n d)) = ix1 d :=
  funext fun a => by match a with | ⟨0, _⟩ => rfl
theorem lidx_v4 (b : Fin 32) (n d k : Fin 512) : lidx_main_v4 (ix3 b n d) k = ix3 b n k :=
  funext fun a => by match a with | ⟨0, _⟩ => rfl | ⟨1, _⟩ => rfl | ⟨2, _⟩ => rfl
theorem ridx_v4 (b : Fin 32) (n d k : Fin 512) : ridx_main_v4 (ix3 b n d) k = ix2 k d :=
  funext fun a => by match a with | ⟨0, _⟩ => rfl | ⟨1, _⟩ => rfl
theorem idx_v6 (b : Fin 32) (n d : Fin 512) : idx_main_v5 (idx_main_v6 (ix3 b n d)) = ix1 d :=
  funext fun a => by match a with | ⟨0, _⟩ => rfl
theorem lidx_v8 (b : Fin 32) (n m k : Fin 512) : lidx_main_v8 (ix3 b n m) k = ix3 b n k :=
  funext fun a => by match a with | ⟨0, _⟩ => rfl | ⟨1, _⟩ => rfl | ⟨2, _⟩ => rfl
theorem ridx_v8 (b : Fin 32) (n m k : Fin 512) : ridx_main_v8 (ix3 b n m) k = ix3 b m k :=
  funext fun a => by match a with | ⟨0, _⟩ => rfl | ⟨1, _⟩ => rfl | ⟨2, _⟩ => rfl
theorem idx_v21 (b : Fin 32) (n m : Fin 512) : idx_main_v20 (idx_main_v21 (ix3 b n m)) = ix2 b n :=
  funext fun a => by match a with | ⟨0, _⟩ => rfl | ⟨1, _⟩ => rfl
theorem idx_v24 (b : Fin 32) (n k : Fin 512) : idx_main_v24 (ix2 b n) k = ix3 b n k :=
  funext fun a => by match a with | ⟨0, _⟩ => rfl | ⟨1, _⟩ => rfl | ⟨2, _⟩ => rfl
theorem idx_v26 (b : Fin 32) (n m : Fin 512) : idx_main_v25 (idx_main_v26 (ix3 b n m)) = ix2 b n :=
  funext fun a => by match a with | ⟨0, _⟩ => rfl | ⟨1, _⟩ => rfl
theorem lidx_v28 (b : Fin 32) (n h k : Fin 512) : lidx_main_v28 (ix3 b n h) k = ix3 b n k :=
  funext fun a => by match a with | ⟨0, _⟩ => rfl | ⟨1, _⟩ => rfl | ⟨2, _⟩ => rfl
theorem ridx_v28 (b : Fin 32) (n h k : Fin 512) : ridx_main_v28 (ix3 b n h) k = ix3 b k h :=
  funext fun a => by match a with | ⟨0, _⟩ => rfl | ⟨1, _⟩ => rfl | ⟨2, _⟩ => rfl
/-- Position K of flat row b is entry (b, K / 512, K % 512). -/
theorem idx_v29 (b : Fin 32) (K : Fin 262144) :
    idx_main_v29 (ix2 b K)
      = ix3 b (⟨K.val / 512, by have := K.isLt; omega⟩ : Fin 512) (⟨K.val % 512, Nat.mod_lt _ (by decide)⟩ : Fin 512) :=
  funext fun a => Fin.ext (by
    have hb := b.isLt; have hK := K.isLt
    match a with
    | ⟨0, _⟩ => show (b.val * 262144 + K.val) / 262144 = b.val; omega
    | ⟨1, _⟩ => show (b.val * 262144 + K.val) / 512 % 512 = K.val / 512; omega
    | ⟨2, _⟩ => show (b.val * 262144 + K.val) % 512 = K.val % 512; omega)
theorem lidx_v30 (b : Fin 32) (j : Fin 512) (K : Fin 262144) : lidx_main_v30 (ix2 b j) K = ix2 b K :=
  funext fun a => by match a with | ⟨0, _⟩ => rfl | ⟨1, _⟩ => rfl
theorem ridx_v30 (b : Fin 32) (j : Fin 512) (K : Fin 262144) : ridx_main_v30 (ix2 b j) K = ix2 K j :=
  funext fun a => by match a with | ⟨0, _⟩ => rfl | ⟨1, _⟩ => rfl
theorem idx_v32 (b : Fin 32) (j : Fin 512) : idx_main_v31 (idx_main_v32 (ix2 b j)) = ix1 j :=
  funext fun a => by match a with | ⟨0, _⟩ => rfl

/-! ## The stages at a point -/

/-- The first projection. -/
theorem q_read (b : Fin 32) (n d : Fin 512) :
    val_main_v3 (F := Ideal) x0 x1 x2 (ix3 b n d) = Spec.q x0 x1 x2 b n d := by
  rw [val_main_v3_apply, val_main_v0_apply, val_main_v2_apply, val_main_v1_apply, idx_v2]
  simp only [lidx_v0, ridx_v0]
  rfl

/-- The second projection. -/
theorem k_read (b : Fin 32) (n d : Fin 512) :
    val_main_v7 (F := Ideal) x0 x3 x4 (ix3 b n d) = Spec.k x0 x3 x4 b n d := by
  rw [val_main_v7_apply, val_main_v4_apply, val_main_v6_apply, val_main_v5_apply, idx_v6]
  simp only [lidx_v4, ridx_v4]
  rfl

/-- The score: the inner product of two projected rows, divided by the constant. -/
theorem score_read (b : Fin 32) (n m : Fin 512) :
    val_main_v10 (F := Ideal) x0 x1 x2 x3 x4 (ix3 b n m) = Spec.score x0 x1 x2 x3 x4 b n m := by
  rw [val_main_v10_apply, val_main_v8_apply, val_main_v9_apply, val_main_cst_apply]
  simp only [lidx_v8, ridx_v8, q_read, k_read]
  rfl

/-- The gate: the logistic function of the score, as the reference spells it. -/
theorem gate_read (b : Fin 32) (n m : Fin 512) :
    val_main_v16 (F := Ideal) x0 x1 x2 x3 x4 (ix3 b n m) = Spec.gate x0 x1 x2 x3 x4 b n m := by
  rw [val_main_v16_apply, val_main_v15_apply, val_main_cst_1_apply, val_main_v14_apply, val_main_v13_apply,
    val_main_cst_0_apply, val_main_v12_apply, val_main_v11_apply, score_read, Spec.gate_eq_ofBits]
  rfl

/-- A maximum along the last axis, read at (b, n): the fold of max over the row, from the starting value. -/
theorem reduce_max_last (g : S32x512x512.Idx → EReal) (init : S_.Idx → EReal) (b : Fin 32) (n : Fin 512) :
    Host.reduce (FloatOps.maximumf (F := Ideal) (φ := .f32)) g init reducesTo_S32x512x512_S32x512_d2 h_S_ (ix2 b n)
      = (Finset.univ : Finset (Fin 512)).fold max (init ix0) (fun m => g (ix3 b n m)) := by
  have h : Shape.Reduces S32x512x512 [2] S32x512 := by decide
  rw [Host.reduce_eq_fold_single (FloatOps.maximumf (F := Ideal) (φ := .f32)) g init reducesTo_S32x512x512_S32x512_d2 h h_S_
    (ix2 b n)]
  have e : (g ∘ h.lift (ix2 b n)) = fun m : Fin 512 => g (ix3 b n m) :=
    funext fun m => congrArg g (funext fun a => Fin.ext (by
      match a with | ⟨0, _⟩ => rfl | ⟨1, _⟩ => rfl | ⟨2, _⟩ => rfl))
  have e0 : init (Shape.Idx.first h_S_) = init ix0 := congrArg init (eq_ix0 _)
  rw [e0]
  exact congrArg (fun f => (Finset.univ : Finset (Fin 512)).fold max (init ix0) f) e

/-- The row maximum. -/
theorem max_read (b : Fin 32) (n : Fin 512) :
    val_main_v19 (F := Ideal) x0 x1 x2 x3 x4 (ix2 b n) = Spec.rowMax x0 x1 x2 x3 x4 b n := by
  rw [val_main_v19_apply, val_main_v18_apply, val_main_cst_3_apply]
  unfold val_main_v17
  rw [reduce_max_last]
  simp only [gate_read]
  rfl

/-- The exponential of a gate less its row's maximum. -/
theorem exp_read (b : Fin 32) (n m : Fin 512) :
    val_main_v23 (F := Ideal) x0 x1 x2 x3 x4 (ix3 b n m) = Spec.rowExp x0 x1 x2 x3 x4 b n m := by
  rw [val_main_v23_apply, val_main_v22_apply, val_main_v21_apply, val_main_v20_apply, idx_v21, gate_read, max_read]
  rfl

/-- The row sum. -/
theorem sum_read (b : Fin 32) (n : Fin 512) :
    val_main_v24 (F := Ideal) x0 x1 x2 x3 x4 (ix2 b n) = Spec.rowSum x0 x1 x2 x3 x4 b n := by
  rw [val_main_v24_apply, val_main_cst_4_apply]
  simp only [idx_v24, exp_read]
  rfl

/-- The attention weight. -/
theorem attn_read (b : Fin 32) (n m : Fin 512) :
    val_main_v27 (F := Ideal) x0 x1 x2 x3 x4 (ix3 b n m) = Spec.attn x0 x1 x2 x3 x4 b n m := by
  rw [val_main_v27_apply, val_main_v26_apply, val_main_v25_apply, idx_v26, exp_read, sum_read]
  rfl

/-- The weights applied to the batch's own rows. -/
theorem av_read (b : Fin 32) (n h : Fin 512) :
    val_main_v28 (F := Ideal) x0 x1 x2 x3 x4 (ix3 b n h) = Spec.av x0 x1 x2 x3 x4 b n h := by
  rw [val_main_v28_apply]
  simp only [lidx_v28, ridx_v28, attn_read]
  rfl

/-- The rows laid end to end. -/
theorem flat_read (b : Fin 32) (K : Fin 262144) :
    val_main_v29 (F := Ideal) x0 x1 x2 x3 x4 (ix2 b K) = Spec.flat x0 x1 x2 x3 x4 b K := by
  rw [val_main_v29_apply, idx_v29, av_read]
  rfl

/-- The last product with its bias. -/
theorem out_read (b : Fin 32) (j : Fin 512) :
    val_main_v33 (F := Ideal) x0 x1 x2 x3 x4 x5 x6 (ix2 b j) = Spec.out x0 x1 x2 x3 x4 x5 x6 b j := by
  rw [val_main_v33_apply, val_main_v30_apply, val_main_v32_apply, val_main_v31_apply, idx_v32]
  simp only [lidx_v30, ridx_v30, flat_read]
  rfl

/-! ## The two results -/

/-- The reference's second result, the attention weights, is the specification's array. -/
theorem attn_eq : val_main_v27 (F := Ideal) x0 x1 x2 x3 x4 = Spec.attnArr x0 x1 x2 x3 x4 := by
  funext i
  obtain ⟨b, n, m, rfl⟩ : ∃ (b : Fin 32) (n m : Fin 512), i = ix3 b n m := ⟨i 0, i 1, i 2, eq_ix3 i⟩
  exact attn_read x0 x1 x2 x3 x4 b n m

/-- The reference's first result is the specification's array. -/
theorem out_eq : val_main_v33 (F := Ideal) x0 x1 x2 x3 x4 x5 x6 = Spec.outArr x0 x1 x2 x3 x4 x5 x6 := by
  funext i
  obtain ⟨b, j, rfl⟩ : ∃ (b : Fin 32) (j : Fin 512), i = ix2 b j := ⟨i 0, i 1, eq_ix2 i⟩
  exact out_read x0 x1 x2 x3 x4 x5 x6 b j

/-! ## The same, for the terms the reference's run leaves in its two result buffers -/

/-- From a memory m, on device c, the run's term for the attention weights is the specification's array of the
    arguments m holds. -/
theorem res_attn_eq (m : (ℓ : Loc nD τ sig) → Buf (Elt Ideal) ℓ) (c : Dev nD) :
    Cert.ReferenceIdeal.Value.res_main_v27 (F := Ideal) m c
      = Spec.attnArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (val_main_v27_eq m c).trans (attn_eq _ _ _ _ _)

/-- And the run's term for the first result is the specification's array of the arguments m holds. -/
theorem res_out_eq (m : (ℓ : Loc nD τ sig) → Buf (Elt Ideal) ℓ) (c : Dev nD) :
    Cert.ReferenceIdeal.Value.res_main_v33 (F := Ideal) m c
      = Spec.outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v33_eq m c).trans (out_eq _ _ _ _ _ _ _)

end Cert.ReferenceIdeal.RefValue

end
-- ==== Proof.lean ====
/-
  The certificate of a two-stage attention block against its array-language definition, over the extended reals.

  Per batch b the program forms q = x Wq + bq and k = x Wk + bk, the scores (q kᵀ) scaled, their sigmoid, the softmax
  of that along the last axis (the first result), that matrix times the batch's x, and — the [32, 512, 512] products
  read as [32, 262144] — the product with the last weight matrix plus a bias (the second result). The kernel scales
  by a constant NAMED 1/D, D being the exact value of the word the definition divides by, and on every extended
  real t · (1/D) = t / D; it accumulates the last product over 64 blocks of 4096 columns in a buffer it carries
  between grid points, and a sum over 262144 terms is the sum of its 64 block sums in any commutative monoid. Every
  other step of the two programs is the same operation read at the same entries, so the two results agree index by
  index with one function of the arguments (Spec), with no condition on the arguments beyond the stated one, which the
  value argument never opens.

  The frames: the kernel's two regions and the reshape between them are run as three items over the contents of
  the core's buffers, which are followed from the launch to the return; no item writes an argument. The same text,
  generic in the float instance, serves the word-level program and the idealized one. The array-language program's
  frame is its own run with the results dropped. The one rewrite the idealization made is the named constant, whose
  statement is its rule's.
-/
import proofs.«132310_j68118181314609_1_alg».proof.Defs
import proofs.«132310_j68118181314609_1_alg».proof.Proof.Gen.Kernel
import proofs.«132310_j68118181314609_1_alg».proof.Proof.Gen.KernelIdeal
import proofs.«132310_j68118181314609_1_alg».proof.Proof.Gen.ReferenceIdeal
import proofs.«132310_j68118181314609_1_alg».proof.Proof.Gen.Pre_finite_inputs
import proofs.«132310_j68118181314609_1_alg».proof.Proof.Gen.ReferenceIdeal.Run
import proofs.«132310_j68118181314609_1_alg».proof.Proof.KMainRun
import proofs.«132310_j68118181314609_1_alg».proof.Proof.MainRun
import proofs.«132310_j68118181314609_1_alg».proof.Proof.Values
import proofs.«132310_j68118181314609_1_alg».proof.Proof.RefValue
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel runs to its end and leaves its arguments as launched. -/
theorem frame_k : Cert.frame_Kernel := fun m ρ _ => Cert.Kernel.Whole.frame (F := Bits) m ρ

/-- So does the idealized kernel. -/
theorem frame_ki : Cert.frame_KernelIdeal := fun m ρ _ => Cert.KernelIdeal.Whole.frame (F := Ideal) m ρ

/-- The array-language program's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization's one rewrite: the scale constant named 1/D, D = 11863283/524288. -/
theorem preserves : Cert.preserves_Kernel_KernelIdeal :=
  IdealRules.named_const.statement Cert.KernelIdeal.κ "inv_sqrt_d" .f32 0x3D3504F3#32 ((524288 / 11863283 : ℝ) : EReal) rfl

/-- From memories agreeing on the arguments both idealized programs end with the specification's two arrays of
    those arguments. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.RefValue.res_out_eq, (hagree c).1, (hagree c).2.1, (hagree c).2.2.1, (hagree c).2.2.2.1,
      (hagree c).2.2.2.2.1, (hagree c).2.2.2.2.2.1, (hagree c).2.2.2.2.2.2]
  · rw [Cert.ReferenceIdeal.RefValue.res_attn_eq, (hagree c).1, (hagree c).2.1, (hagree c).2.2.1, (hagree c).2.2.2.1,
      (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
